-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S768x2304 : S_.BroadcastsInDim S768x2304 (![] : Fin 0 → Fin S768x2304.rank)
  reducesTo_S768x2304_S_d0_1 : S768x2304.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S8x1024x768 .f32) (main_arg1 : FVec F S768x2304 .f32) (main_arg2 : FVec F S2304 .f32) (main_arg3 : FVec F S768x768 .f32) (main_arg4 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S768x2304 .f32 := Host.absf main_arg1
  let main_cst_0 : FVec F S_ .f32 := constant S_ .f32 0x7F800000#32
  let main_v5 : FVec F S768x2304 .f32 := broadcastInDim S768x2304 ![] bcast_S_S768x2304 main_cst_0
  let main_v6 : IVec S768x2304 1 := cmpf .olt main_v4 main_v5
  let main_c_1 : IVec S_ 1 := constantI S_ 1 1#1
  let main_v7 : IVec S_ 1 := (fun x v => Host.reduce IntOp.andi x v reducesTo_S768x2304_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S8x1024x768 : Shape := ⟨3, ![8, 1024, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S8192x768 : Shape := ⟨2, ![8192, 768]⟩
abbrev S512x768 : Shape := ⟨2, ![512, 768]⟩
abbrev S512x2304 : Shape := ⟨2, ![512, 2304]⟩
abbrev S1x2304 : Shape := ⟨2, ![1, 2304]⟩
abbrev S1x1024x768 : Shape := ⟨3, ![1, 1024, 768]⟩
abbrev S1x1024x96 : Shape := ⟨3, ![1, 1024, 96]⟩
abbrev S1024x96 : Shape := ⟨2, ![1024, 96]⟩
abbrev S1024x1024 : Shape := ⟨2, ![1024, 1024]⟩
abbrev S1024 : Shape := ⟨1, ![1024]⟩
abbrev S1024x1 : Shape := ⟨2, ![1024, 1]⟩
abbrev S1024x768 : Shape := ⟨2, ![1024, 768]⟩
abbrev S1x768 : Shape := ⟨2, ![1, 768]⟩

abbrev nBuf : Space → Nat
  | .hbm => 18
  | .vmem => 24
  | .smem => 0
  | _ => 0

abbrev bufTy : (tb : Table) → Fin (tcTables nBuf tb) → BufTy
  | .hbm, ⟨0, _⟩ => ⟨S8x1024x768, .f32⟩
  | .hbm, ⟨1, _⟩ => ⟨S768x2304, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S8192x768, .f32⟩
  | .hbm, ⟨6, _⟩ => ⟨S768x2304, .bf16⟩
  | .hbm, ⟨7, _⟩ => ⟨S768x768, .bf16⟩
  | .hbm, ⟨8, _⟩ => ⟨S8192x768, .bf16⟩
  | .hbm, ⟨9, _⟩ => ⟨S8192x768, .bf16⟩
  | .hbm, ⟨10, _⟩ => ⟨S8192x768, .bf16⟩
  | .hbm, ⟨11, _⟩ => ⟨S8x1024x768, .bf16⟩
  | .hbm, ⟨12, _⟩ => ⟨S8x1024x768, .bf16⟩
  | .hbm, ⟨13, _⟩ => ⟨S8x1024x768, .bf16⟩
  | .hbm, ⟨14, _⟩ => ⟨S8x1024x768, .bf16⟩
  | .hbm, ⟨15, _⟩ => ⟨S8192x768, .bf16⟩
  | .hbm, ⟨16, _⟩ => ⟨S8192x768, .f32⟩
  | .hbm, ⟨17, _⟩ => ⟨S8x1024x768, .f32⟩
  | .local _ .vmem, ⟨0, _⟩ => ⟨S512x768, .f32⟩
  | .local _ .vmem, ⟨1, _⟩ => ⟨S512x768, .f32⟩
  | .local _ .vmem, ⟨2, _⟩ => ⟨S768x2304, .bf16⟩
  | .local _ .vmem, ⟨3, _⟩ => ⟨S2304, .f32⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S1x1024x768, .bf16⟩
  | .local _ .vmem, ⟨11, _⟩ => ⟨S1x1024x768, .bf16⟩
  | .local _ .vmem, ⟨12, _⟩ => ⟨S1x1024x768, .bf16⟩
  | .local _ .vmem, ⟨13, _⟩ => ⟨S1x1024x768, .bf16⟩
  | .local _ .vmem, ⟨14, _⟩ => ⟨S1x1024x768, .bf16⟩
  | .local _ .vmem, ⟨15, _⟩ => ⟨S1x1024x768, .bf16⟩
  | .local _ .vmem, ⟨16, _⟩ => ⟨S1x1024x768, .bf16⟩
  | .local _ .vmem, ⟨17, _⟩ => ⟨S1x1024x768, .bf16⟩
  | .local _ .vmem, ⟨18, _⟩ => ⟨S1024x768, .bf16⟩
  | .local _ .vmem, ⟨19, _⟩ => ⟨S1024x768, .bf16⟩
  | .local _ .vmem, ⟨20, _⟩ => ⟨S768x768, .bf16⟩
  | .local _ .vmem, ⟨21, _⟩ => ⟨S768, .f32⟩
  | .local _ .vmem, ⟨22, _⟩ => ⟨S1024x768, .f32⟩
  | .local _ .vmem, ⟨23, _⟩ => ⟨S1024x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S8x1024x768_S8192x768 : S8x1024x768.ShapeCasts S8192x768
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S2304_S2304_0 : ∀ a, (![0] : Fin 1 → Nat) a + S2304.size a ≤ S2304.size a
  h_S2304 : 0 < S2304.numel
  shapeCasts_S2304_S1x2304 : S2304.ShapeCasts S1x2304
  broadcasts_S1x2304_S512x2304 : S1x2304.Broadcasts S512x2304
  slices_S512x2304_o0_0_S512x768 : S512x2304.Slices ![0, 0] S512x768
  packedbf16_S512x768_S512x768_0_0 : (Rect.unit (s := S512x768) ![0, 0] S512x768.size inb_S512x768_S512x768_0_0).PackedRows (EltTy.packing .bf16)
  slices_S512x2304_o0_768_S512x768 : S512x2304.Slices ![0, 768] S512x768
  slices_S512x2304_o0_1536_S512x768 : S512x2304.Slices ![0, 1536] S512x768
  shapeCasts_S8192x768_S8x1024x768 : S8192x768.ShapeCasts S8x1024x768
  inb_S1x1024x768_S1x1024x96_0_0_0 : ∀ a, (![0, 0, 0] : Fin 3 → Nat) a + S1x1024x96.size a ≤ S1x1024x768.size a
  h_S1x1024x96 : 0 < S1x1024x96.numel
  shapeCasts_S1x1024x96_S1024x96 : S1x1024x96.ShapeCasts S1024x96
  reduces_S1024x1024_S1024 : S1024x1024.Reduces [1] S1024
  shapeCasts_S1024_S1024x1 : S1024.ShapeCasts S1024x1
  broadcasts_S1024x1_S1024x1024 : S1024x1.Broadcasts S1024x1024
  shapeCasts_S1024x96_S1x1024x96 : S1024x96.ShapeCasts S1x1024x96
  packedbf16_S1x1024x768_S1x1024x96_0_0_0 : (Rect.unit (s := S1x1024x768) ![0, 0, 0] S1x1024x96.size inb_S1x1024x768_S1x1024x96_0_0_0).PackedRows (EltTy.packing .bf16)
  inb_S1x1024x768_S1x1024x96_0_0_96 : ∀ a, (![0, 0, 96] : Fin 3 → Nat) a + S1x1024x96.size a ≤ S1x1024x768.size a
  packedbf16_S1x1024x768_S1x1024x96_0_0_96 : (Rect.unit (s := S1x1024x768) ![0, 0, 96] S1x1024x96.size inb_S1x1024x768_S1x1024x96_0_0_96).PackedRows (EltTy.packing .bf16)
  inb_S1x1024x768_S1x1024x96_0_0_192 : ∀ a, (![0, 0, 192] : Fin 3 → Nat) a + S1x1024x96.size a ≤ S1x1024x768.size a
  packedbf16_S1x1024x768_S1x1024x96_0_0_192 : (Rect.unit (s := S1x1024x768) ![0, 0, 192] S1x1024x96.size inb_S1x1024x768_S1x1024x96_0_0_192).PackedRows (EltTy.packing .bf16)
  inb_S1x1024x768_S1x1024x96_0_0_288 : ∀ a, (![0, 0, 288] : Fin 3 → Nat) a + S1x1024x96.size a ≤ S1x1024x768.size a
  packedbf16_S1x1024x768_S1x1024x96_0_0_288 : (Rect.unit (s := S1x1024x768) ![0, 0, 288] S1x1024x96.size inb_S1x1024x768_S1x1024x96_0_0_288).PackedRows (EltTy.packing .bf16)
  inb_S1x1024x768_S1x1024x96_0_0_384 : ∀ a, (![0, 0, 384] : Fin 3 → Nat) a + S1x1024x96.size a ≤ S1x1024x768.size a
  packedbf16_S1x1024x768_S1x1024x96_0_0_384 : (Rect.unit (s := S1x1024x768) ![0, 0, 384] S1x1024x96.size inb_S1x1024x768_S1x1024x96_0_0_384).PackedRows (EltTy.packing .bf16)
  inb_S1x1024x768_S1x1024x96_0_0_480 : ∀ a, (![0, 0, 480] : Fin 3 → Nat) a + S1x1024x96.size a ≤ S1x1024x768.size a
  packedbf16_S1x1024x768_S1x1024x96_0_0_480 : (Rect.unit (s := S1x1024x768) ![0, 0, 480] S1x1024x96.size inb_S1x1024x768_S1x1024x96_0_0_480).PackedRows (EltTy.packing .bf16)
  inb_S1x1024x768_S1x1024x96_0_0_576 : ∀ a, (![0, 0, 576] : Fin 3 → Nat) a + S1x1024x96.size a ≤ S1x1024x768.size a
  packedbf16_S1x1024x768_S1x1024x96_0_0_576 : (Rect.unit (s := S1x1024x768) ![0, 0, 576] S1x1024x96.size inb_S1x1024x768_S1x1024x96_0_0_576).PackedRows (EltTy.packing .bf16)
  inb_S1x1024x768_S1x1024x96_0_0_672 : ∀ a, (![0, 0, 672] : Fin 3 → Nat) a + S1x1024x96.size a ≤ S1x1024x768.size a
  packedbf16_S1x1024x768_S1x1024x96_0_0_672 : (Rect.unit (s := S1x1024x768) ![0, 0, 672] S1x1024x96.size inb_S1x1024x768_S1x1024x96_0_0_672).PackedRows (EltTy.packing .bf16)
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  dot_S512x768_S768x2304_S512x2304_1_0_0_1_n_n_wf : DotDims.WF S512x768 S768x2304 S512x2304 [1] [0] [0] [1] [] []
  dot_S1024x96_S1024x96_S1024x1024_1_1_0_0_n_n_wf : DotDims.WF S1024x96 S1024x96 S1024x1024 [1] [1] [0] [0] [] []
  dot_S1024x1024_S1024x96_S1024x96_1_0_0_1_n_n_wf : DotDims.WF S1024x1024 S1024x96 S1024x96 [1] [0] [0] [1] [] []
  dot_S1024x768_S768x768_S1024x768_1_0_0_1_n_n_wf : DotDims.WF S1024x768 S768x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .f32 = 32 ∨ (Rect.block (s := S8192x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2304.size a ≤ S2304.size a
  hwx0_2 : ∀ i : grid0.Coords, EltTy.bits .f32 = 32 ∨ (Rect.block (s := S2304) S2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S8192x768.size a
  hwx0_3 : ∀ i : grid0.Coords, EltTy.bits .bf16 = 32 ∨ (Rect.block (s := S8192x768) S512x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x768.size a ≤ S8192x768.size a
  hwx0_4 : ∀ i : grid0.Coords, EltTy.bits .bf16 = 32 ∨ (Rect.block (s := S8192x768) S512x768.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x768.size a ≤ S8192x768.size a
  hwx0_5 : ∀ i : grid0.Coords, EltTy.bits .bf16 = 32 ∨ (Rect.block (s := S8192x768) S512x768.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x768.size a ≤ S8x1024x768.size a
  hwx1_0 : ∀ i : grid1.Coords, EltTy.bits .bf16 = 32 ∨ (Rect.block (s := S8x1024x768) S1x1024x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x768.size a ≤ S8x1024x768.size a
  hwx1_1 : ∀ i : grid1.Coords, EltTy.bits .bf16 = 32 ∨ (Rect.block (s := S8x1024x768) S1x1024x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x768.size a ≤ S8x1024x768.size a
  hwx1_2 : ∀ i : grid1.Coords, EltTy.bits .bf16 = 32 ∨ (Rect.block (s := S8x1024x768) S1x1024x768.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x768.size a ≤ S8x1024x768.size a
  hwx1_3 : ∀ i : grid1.Coords, EltTy.bits .bf16 = 32 ∨ (Rect.block (s := S8x1024x768) S1x1024x768.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x768.size a ≤ S8192x768.size a
  hwx2_0 : ∀ i : grid2.Coords, EltTy.bits .bf16 = 32 ∨ (Rect.block (s := S8192x768) S1024x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .bf16 = 32 ∨ (Rect.block (s := S768x768) S768x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768.size a ≤ S768.size a
  hwx2_2 : ∀ i : grid2.Coords, EltTy.bits .f32 = 32 ∨ (Rect.block (s := S768) S768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x768.size a ≤ S8192x768.size a
  hwx2_3 : ∀ i : grid2.Coords, EltTy.bits .f32 = 32 ∨ (Rect.block (s := S8192x768) S1024x768.size (cc2_transform_3 i) (hinb2_3 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S1024x96_S1024x96_S1024x1024_1_1_0_0_n_n : DotDims S1024x96 S1024x96 S1024x1024 where
  lhsContracting := [1]
  rhsContracting := [1]
  lhsNonContracting := [0]
  rhsNonContracting := [0]
  lhsBatch := []
  rhsBatch := []
  wf := dot_S1024x96_S1024x96_S1024x1024_1_1_0_0_n_n_wf
def dot_S1024x1024_S1024x96_S1024x96_1_0_0_1_n_n : DotDims S1024x1024 S1024x96 S1024x96 where
  lhsContracting := [1]
  rhsContracting := [0]
  lhsNonContracting := [0]
  rhsNonContracting := [1]
  lhsBatch := []
  rhsBatch := []
  wf := dot_S1024x1024_S1024x96_S1024x96_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S512x768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S512x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S512x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S1x1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1024x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1024x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x1024x768 : Shape := ⟨3, ![8, 1024, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S8x1024x2304 : Shape := ⟨3, ![8, 1024, 2304]⟩
abbrev S1x1x2304 : Shape := ⟨3, ![1, 1, 2304]⟩
abbrev S8x1024x3x8x96 : Shape := ⟨5, ![8, 1024, 3, 8, 96]⟩
abbrev S3x8x8x1024x96 : Shape := ⟨5, ![3, 8, 8, 1024, 96]⟩
abbrev S1x8x8x1024x96 : Shape := ⟨5, ![1, 8, 8, 1024, 96]⟩
abbrev S8x8x1024x96 : Shape := ⟨4, ![8, 8, 1024, 96]⟩
abbrev S_ : Shape := ⟨0, ![]⟩
abbrev S8x8x1024x1024 : Shape := ⟨4, ![8, 8, 1024, 1024]⟩
abbrev S8x8x1024 : Shape := ⟨3, ![8, 8, 1024]⟩
abbrev S8x8x1024x1 : Shape := ⟨4, ![8, 8, 1024, 1]⟩
abbrev S8x1024x8x96 : Shape := ⟨4, ![8, 1024, 8, 96]⟩
abbrev S1x1x768 : Shape := ⟨3, ![1, 1, 768]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S768x2304, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S8x1024x2304, .f32⟩
  | .hbm, ⟨6, _⟩ => ⟨S1x1x2304, .f32⟩
  | .hbm, ⟨7, _⟩ => ⟨S8x1024x2304, .f32⟩
  | .hbm, ⟨8, _⟩ => ⟨S8x1024x2304, .f32⟩
  | .hbm, ⟨9, _⟩ => ⟨S8x1024x3x8x96, .f32⟩
  | .hbm, ⟨10, _⟩ => ⟨S3x8x8x1024x96, .f32⟩
  | .hbm, ⟨11, _⟩ => ⟨S1x8x8x1024x96, .f32⟩
  | .hbm, ⟨12, _⟩ => ⟨S8x8x1024x96, .f32⟩
  | .hbm, ⟨13, _⟩ => ⟨S1x8x8x1024x96, .f32⟩
  | .hbm, ⟨14, _⟩ => ⟨S8x8x1024x96, .f32⟩
  | .hbm, ⟨15, _⟩ => ⟨S1x8x8x1024x96, .f32⟩
  | .hbm, ⟨16, _⟩ => ⟨S8x8x1024x96, .f32⟩
  | .hbm, ⟨17, _⟩ => ⟨S_, .f32⟩
  | .hbm, ⟨18, _⟩ => ⟨S8x8x1024x96, .f32⟩
  | .hbm, ⟨19, _⟩ => ⟨S8x8x1024x96, .f32⟩
  | .hbm, ⟨20, _⟩ => ⟨S8x8x1024x1024, .f32⟩
  | .hbm, ⟨21, _⟩ => ⟨S_, .f32⟩
  | .hbm, ⟨22, _⟩ => ⟨S8x8x1024, .f32⟩
  | .hbm, ⟨23, _⟩ => ⟨S_, .f32⟩
  | .hbm, ⟨24, _⟩ => ⟨S8x8x1024, .f32⟩
  | .hbm, ⟨25, _⟩ => ⟨S8x8x1024, .f32⟩
  | .hbm, ⟨26, _⟩ => ⟨S8x8x1024x1, .f32⟩
  | .hbm, ⟨27, _⟩ => ⟨S8x8x1024x1024, .f32⟩
  | .hbm, ⟨28, _⟩ => ⟨S8x8x1024x1024, .f32⟩
  | .hbm, ⟨29, _⟩ => ⟨S8x8x1024x1024, .f32⟩
  | .hbm, ⟨30, _⟩ => ⟨S_, .f32⟩
  | .hbm, ⟨31, _⟩ => ⟨S8x8x1024, .f32⟩
  | .hbm, ⟨32, _⟩ => ⟨S8x8x1024x1, .f32⟩
  | .hbm, ⟨33, _⟩ => ⟨S8x8x1024x1024, .f32⟩
  | .hbm, ⟨34, _⟩ => ⟨S8x8x1024x1024, .f32⟩
  | .hbm, ⟨35, _⟩ => ⟨S8x8x1024x96, .f32⟩
  | .hbm, ⟨36, _⟩ => ⟨S8x1024x8x96, .f32⟩
  | .hbm, ⟨37, _⟩ => ⟨S8x1024x768, .f32⟩
  | .hbm, ⟨38, _⟩ => ⟨S8x1024x768, .f32⟩
  | .hbm, ⟨39, _⟩ => ⟨S1x1x768, .f32⟩
  | .hbm, ⟨40, _⟩ => ⟨S8x1024x768, .f32⟩
  | .hbm, ⟨41, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S8x1024x2304_0_1_2 : S1x1x2304.BroadcastsInDim S8x1024x2304 (![0, 1, 2] : Fin 3 → Fin S8x1024x2304.rank)
  shapeCasts_S8x1024x2304_S8x1024x3x8x96 : S8x1024x2304.ShapeCasts S8x1024x3x8x96
  transposes_S8x1024x3x8x96_S3x8x8x1024x96_2_0_3_1_4 : S8x1024x3x8x96.Transposes [2, 0, 3, 1, 4] S3x8x8x1024x96
  slices_S3x8x8x1024x96_S1x8x8x1024x96_0_0_0_0_0 : S3x8x8x1024x96.Slices ![0, 0, 0, 0, 0] S1x8x8x1024x96
  shapeCasts_S1x8x8x1024x96_S8x8x1024x96 : S1x8x8x1024x96.ShapeCasts S8x8x1024x96
  slices_S3x8x8x1024x96_S1x8x8x1024x96_1_0_0_0_0 : S3x8x8x1024x96.Slices ![1, 0, 0, 0, 0] S1x8x8x1024x96
  slices_S3x8x8x1024x96_S1x8x8x1024x96_2_0_0_0_0 : S3x8x8x1024x96.Slices ![2, 0, 0, 0, 0] S1x8x8x1024x96
  bcast_S_S8x8x1024x96 : S_.BroadcastsInDim S8x8x1024x96 (![] : Fin 0 → Fin S8x8x1024x96.rank)
  reducesTo_S8x8x1024x1024_S8x8x1024_d3 : S8x8x1024x1024.ReducesTo [3] S8x8x1024
  h_S_ : 0 < S_.numel
  bcast_S_S8x8x1024 : S_.BroadcastsInDim S8x8x1024 (![] : Fin 0 → Fin S8x8x1024.rank)
  bcast_S8x8x1024_S8x8x1024x1_0_1_2 : S8x8x1024.BroadcastsInDim S8x8x1024x1 (![0, 1, 2] : Fin 3 → Fin S8x8x1024x1.rank)
  bcast_S8x8x1024x1_S8x8x1024x1024_0_1_2_3 : S8x8x1024x1.BroadcastsInDim S8x8x1024x1024 (![0, 1, 2, 3] : Fin 4 → Fin S8x8x1024x1024.rank)
  transposes_S8x8x1024x96_S8x1024x8x96_0_2_1_3 : S8x8x1024x96.Transposes [0, 2, 1, 3] S8x1024x8x96
  shapeCasts_S8x1024x8x96_S8x1024x768 : S8x1024x8x96.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S8x1024x768_S768x2304_S8x1024x2304_2_0_01_1_n_n_wf : DotDims.WF S8x1024x768 S768x2304 S8x1024x2304 [2] [0] [0, 1] [1] [] []
  dot_S8x8x1024x96_S8x8x1024x96_S8x8x1024x1024_3_3_2_2_01_01_wf : DotDims.WF S8x8x1024x96 S8x8x1024x96 S8x8x1024x1024 [3] [3] [2] [2] [0, 1] [0, 1]
  dot_S8x8x1024x1024_S8x8x1024x96_S8x8x1024x96_3_2_2_3_01_01_wf : DotDims.WF S8x8x1024x1024 S8x8x1024x96 S8x8x1024x96 [3] [2] [2] [3] [0, 1] [0, 1]
  dot_S8x1024x768_S768x768_S8x1024x768_2_0_01_1_n_n_wf : DotDims.WF S8x1024x768 S768x768 S8x1024x768 [2] [0] [0, 1] [1] [] []

variable [Facts₀]

def dot_S8x1024x768_S768x2304_S8x1024x2304_2_0_01_1_n_n : DotDims S8x1024x768 S768x2304 S8x1024x2304 where
  lhsContracting := [2]
  rhsContracting := [0]
  lhsNonContracting := [0, 1]
  rhsNonContracting := [1]
  lhsBatch := []
  rhsBatch := []
  wf := dot_S8x1024x768_S768x2304_S8x1024x2304_2_0_01_1_n_n_wf
def dot_S8x8x1024x96_S8x8x1024x96_S8x8x1024x1024_3_3_2_2_01_01 : DotDims S8x8x1024x96 S8x8x1024x96 S8x8x1024x1024 where
  lhsContracting := [3]
  rhsContracting := [3]
  lhsNonContracting := [2]
  rhsNonContracting := [2]
  lhsBatch := [0, 1]
  rhsBatch := [0, 1]
  wf := dot_S8x8x1024x96_S8x8x1024x96_S8x8x1024x1024_3_3_2_2_01_01_wf
def dot_S8x8x1024x1024_S8x8x1024x96_S8x8x1024x96_3_2_2_3_01_01 : DotDims S8x8x1024x1024 S8x8x1024x96 S8x8x1024x96 where
  lhsContracting := [3]
  rhsContracting := [2]
  lhsNonContracting := [2]
  rhsNonContracting := [3]
  lhsBatch := [0, 1]
  rhsBatch := [0, 1]
  wf := dot_S8x8x1024x1024_S8x8x1024x96_S8x8x1024x96_3_2_2_3_01_01_wf
def dot_S8x1024x768_S768x768_S8x1024x768_2_0_01_1_n_n : DotDims S8x1024x768 S768x768 S8x1024x768 where
  lhsContracting := [2]
  rhsContracting := [0]
  lhsNonContracting := [0, 1]
  rhsNonContracting := [1]
  lhsBatch := []
  rhsBatch := []
  wf := dot_S8x1024x768_S768x768_S8x1024x768_2_0_01_1_n_n_wf

class Facts : Prop extends Facts₀ where

variable [Facts]
-- ==== Proof.KRun.lean ====
/-
  The idealized kernel program's run, with its result named.

  The program is seven segments: host operations (a reshape of the input to [8192, 768], the two weight
  matrices narrowed), the fused linear kernel, three reshapes, the attention kernel, a reshape, the output
  linear kernel, and a last reshape.  The buffers' contents at each boundary are a fold through the
  program from the launch memory (`Gen.W1` … `Gen.W7`); after the last segment every unscoped buffer holds
  what that fold says.  Read at the result buffer this names the program's result as `Gen.W7` at that
  buffer; read at the five arguments it gives them back as launched.
-/
import proofs.«181797_j90005334655017_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; in its final state the result
    buffer holds the boundary fold's contents and the five arguments hold what they were launched with. -/
theorem run_val : θ_run defs (onTc (τ := τ) (main (F := F))) ⟨m, fun _ => 0, ρ⟩ (fun r => ∀ c : Dev nD,
      r.2.mem ((c.tc : Thread nD τ).loc main_v10) = W7 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v10 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Hand

end
-- ==== Proof.Boundaries.lean ====
/-
  What each kernel finds in its operand arrays, at the ideal values.

  Between the three kernels the program only re-lays arrays out: the input [8, 1024, 768] is viewed as
  [8192, 768]; the two weight matrices are narrowed to a shorter float format, which over the extended reals
  changes nothing; each of the three [8192, 768] outputs of the fused linear kernel is viewed as
  [8, 1024, 768] for the attention kernel; its output is viewed as [8192, 768] again for the output linear
  kernel; and that kernel's output is viewed as [8, 1024, 768], the result.  The biases and the second weight
  matrix are written by nothing on the way and arrive as launched.  Each lemma reads one buffer at one
  boundary of the program back to the launch memory or to the array a kernel left.
-/
import proofs.«181797_j90005334655017_2_alg».proof.Proof.Gen.KernelIdeal.Frame
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## Entering the fused linear kernel -/

theorem V1_v0 : (V1 m ρ c main_v0 : S8192x768.Idx → Elt Ideal .f32)
    = shapeCast S8192x768 (m ((c : Thread nD τ).loc main_arg0)) shapeCasts_S8x1024x768_S8192x768 := by
  show StableHlo.after hostOps0 (W0 m ρ c) (Proc.devRef .tc main_v0) = _
  after_results
  rfl

theorem V1_v1 : (V1 m ρ c main_v1 : S768x2304.Idx → Elt Ideal .bf16) = m ((c : Thread nD τ).loc main_arg1) := by
  show StableHlo.after hostOps0 (W0 m ρ c) (Proc.devRef .tc main_v1) = _
  after_results
  rfl

theorem V1_arg2 : (V1 m ρ c main_arg2 : S2304.Idx → Elt Ideal .f32) = m ((c : Thread nD τ).loc main_arg2) := by
  show StableHlo.after hostOps0 (W0 m ρ c) (Proc.devRef .tc main_arg2) = _
  after_results

theorem W1_v2 : (W1 m ρ c (Proc.devRef .tc main_v2) : S768x768.Idx → Elt Ideal .bf16) = m ((c : Thread nD τ).loc main_arg3) := by
  show StableHlo.after hostOps0 (W0 m ρ c) (Proc.devRef .tc main_v2) = _
  after_results
  rfl

theorem W1_arg4 : (W1 m ρ c (Proc.devRef .tc main_arg4) : S768.Idx → Elt Ideal .f32) = m ((c : Thread nD τ).loc main_arg4) := by
  show StableHlo.after hostOps0 (W0 m ρ c) (Proc.devRef .tc main_arg4) = _
  after_results

/-! ## Entering the attention kernel -/

theorem V3_v4 : (V3 m ρ c main_v4 : S8x1024x768.Idx → Elt Ideal .bf16)
    = shapeCast S8x1024x768 ((dat0 (V1 m ρ) c).arrAt 3 cfg0.N) shapeCasts_S8192x768_S8x1024x768 := by
  rw [← W2_arr m ρ c 3]
  show StableHlo.after hostOps1 (W2 m ρ c) (Proc.devRef .tc main_v4) = _
  after_results
  rfl

theorem V3_v5 : (V3 m ρ c main_v5 : S8x1024x768.Idx → Elt Ideal .bf16)
    = shapeCast S8x1024x768 ((dat0 (V1 m ρ) c).arrAt 4 cfg0.N) shapeCasts_S8192x768_S8x1024x768 := by
  rw [← W2_arr m ρ c 4]
  show StableHlo.after hostOps1 (W2 m ρ c) (Proc.devRef .tc main_v5) = _
  after_results
  rfl

theorem V3_v6 : (V3 m ρ c main_v6 : S8x1024x768.Idx → Elt Ideal .bf16)
    = shapeCast S8x1024x768 ((dat0 (V1 m ρ) c).arrAt 5 cfg0.N) shapeCasts_S8192x768_S8x1024x768 := by
  rw [← W2_arr m ρ c 5]
  show StableHlo.after hostOps1 (W2 m ρ c) (Proc.devRef .tc main_v6) = _
  after_results
  rfl

theorem W3_v2 : (W3 m ρ c (Proc.devRef .tc main_v2) : S768x768.Idx → Elt Ideal .bf16) = m ((c : Thread nD τ).loc main_arg3) := by
  rw [← W1_v2 m ρ c, ← W2_of_ne m ρ c main_v2 (by decide)]
  show StableHlo.after hostOps1 (W2 m ρ c) (Proc.devRef .tc main_v2) = _
  after_results

theorem W3_arg4 : (W3 m ρ c (Proc.devRef .tc main_arg4) : S768.Idx → Elt Ideal .f32) = m ((c : Thread nD τ).loc main_arg4) := by
  rw [← W1_arg4 m ρ c, ← W2_of_ne m ρ c main_arg4 (by decide)]
  show StableHlo.after hostOps1 (W2 m ρ c) (Proc.devRef .tc main_arg4) = _
  after_results

/-! ## Entering the output linear kernel -/

theorem V5_v8 : (V5 m ρ c main_v8 : S8192x768.Idx → Elt Ideal .bf16)
    = shapeCast S8192x768 ((dat1 (V3 m ρ) c).arrAt 3 cfg1.N) shapeCasts_S8x1024x768_S8192x768 := by
  rw [← W4_arr m ρ c 3]
  show StableHlo.after hostOps2 (W4 m ρ c) (Proc.devRef .tc main_v8) = _
  after_results
  rfl

theorem V5_v2 : (V5 m ρ c main_v2 : S768x768.Idx → Elt Ideal .bf16) = m ((c : Thread nD τ).loc main_arg3) := by
  rw [← W3_v2 m ρ c, ← W4_of_ne m ρ c main_v2 (by decide)]
  show StableHlo.after hostOps2 (W4 m ρ c) (Proc.devRef .tc main_v2) = _
  after_results

theorem V5_arg4 : (V5 m ρ c main_arg4 : S768.Idx → Elt Ideal .f32) = m ((c : Thread nD τ).loc main_arg4) := by
  rw [← W3_arg4 m ρ c, ← W4_of_ne m ρ c main_arg4 (by decide)]
  show StableHlo.after hostOps2 (W4 m ρ c) (Proc.devRef .tc main_arg4) = _
  after_results

/-! ## The result -/

theorem W7_v10 : (W7 m ρ c (Proc.devRef .tc main_v10) : S8x1024x768.Idx → Elt Ideal .f32)
    = shapeCast S8x1024x768 ((dat2 (V5 m ρ) c).arrAt 3 cfg2.N) shapeCasts_S8192x768_S8x1024x768 := by
  rw [← W6_arr m ρ c 3]
  show StableHlo.after hostOps3 (W6 m ρ c) (Proc.devRef .tc main_v10) = _
  after_results
  rfl

end Cert.KernelIdeal.Hand

end
-- ==== Proof.Spec.lean ====
/-
  Multi-head self-attention over the extended reals, written entry by entry.

  The input `x` is an [8, 1024, 768] array (batch, position, feature).  A fused linear map `x · w + bq` into
  2304 = 3 · 8 · 96 columns gives, for each of the 8 heads and 96 lanes, a query (columns `h·96 + d`, multiplied
  by the scale literal), a key (columns `768 + h·96 + d`) and a value (columns `1536 + h·96 + d`).  For a batch
  `b`, head `h` and query position `n` the score against key position `k` is the sum over the lanes of
  query · key; the row of scores is turned into weights by the softmax written as
  `exp (s − max s) / Σ exp (s − max s)` (the maximum a fold of `max` from −∞, the quotient `Ideal.div`), and the
  attended value is the weighted sum of the values.  The heads are laid side by side again (column `c` of the
  attended array belongs to head `c / 96`, lane `c % 96`) and a second linear map `· wp + bp` gives the result.

  Nothing here mentions a program: this is the one function both programs are shown to compute.
-/
import Idealize.ShloMosaic.PureOps.Ideal
import Idealize.ShloMosaic.Lib.ValueIdx

noncomputable section

namespace Cert.Attn

open Idealize.ShloMosaic Idealize.ShloMosaic.ValueIdx

/-- The scale the queries are multiplied by: the f32 literal both programs carry (the rounded 96^(-1/2)). -/
def scl : EReal := Ideal.ofBits .f32 0x3DD105EC#32

/-- The value the row maximum is folded from: the f32 pattern of −∞. -/
def ninf : EReal := Ideal.ofBits .f32 0xFF800000#32

/-- Column `h·96 + d` of the 768 feature columns: lane `d` of head `h`. -/
def col (h : Fin 8) (d : Fin 96) : Fin 768 := ⟨h.val * 96 + d.val, by have := h.isLt; have := d.isLt; omega⟩
/-- The query column of head `h`, lane `d`, among the 2304 fused columns. -/
def qcol (h : Fin 8) (d : Fin 96) : Fin 2304 := ⟨h.val * 96 + d.val, by have := h.isLt; have := d.isLt; omega⟩
/-- The key column of head `h`, lane `d`. -/
def kcol (h : Fin 8) (d : Fin 96) : Fin 2304 := ⟨768 + (h.val * 96 + d.val), by have := h.isLt; have := d.isLt; omega⟩
/-- The value column of head `h`, lane `d`. -/
def vcol (h : Fin 8) (d : Fin 96) : Fin 2304 := ⟨1536 + (h.val * 96 + d.val), by have := h.isLt; have := d.isLt; omega⟩
/-- Feature column `j` as a query, key, value column of the 2304 fused columns. -/
def qc (j : Fin 768) : Fin 2304 := ⟨j.val, by have := j.isLt; omega⟩
def kc (j : Fin 768) : Fin 2304 := ⟨768 + j.val, by have := j.isLt; omega⟩
def vc (j : Fin 768) : Fin 2304 := ⟨1536 + j.val, by have := j.isLt; omega⟩
theorem qc_col (h : Fin 8) (d : Fin 96) : qc (col h d) = qcol h d := rfl
theorem kc_col (h : Fin 8) (d : Fin 96) : kc (col h d) = kcol h d := rfl
theorem vc_col (h : Fin 8) (d : Fin 96) : vc (col h d) = vcol h d := rfl
/-- The head a feature column belongs to. -/
def hd (c : Fin 768) : Fin 8 := ⟨c.val / 96, by have := c.isLt; omega⟩
/-- The lane of a feature column inside its head. -/
def ln (c : Fin 768) : Fin 96 := ⟨c.val % 96, Nat.mod_lt _ (by decide)⟩

theorem col_hd_ln (c : Fin 768) : col (hd c) (ln c) = c := Fin.ext (by
  show c.val / 96 * 96 + c.val % 96 = c.val
  omega)
theorem hd_col (h : Fin 8) (d : Fin 96) : hd (col h d) = h := Fin.ext (by
  show (h.val * 96 + d.val) / 96 = h.val
  have := d.isLt; omega)
theorem ln_col (h : Fin 8) (d : Fin 96) : ln (col h d) = d := Fin.ext (by
  show (h.val * 96 + d.val) % 96 = d.val
  have := d.isLt; omega)

/-! ## Attention from given queries, keys and values (indexed by batch, position, head, lane) -/

section core

variable (qf kf vf : Fin 8 → Fin 1024 → Fin 8 → Fin 96 → EReal)

/-- The score of query position `n` against key position `k`: the sum over the lanes of query · key. -/
def score (b h : Fin 8) (n k : Fin 1024) : EReal := ∑ d : Fin 96, qf b n h d * kf b k h d

/-- The maximum of a row of scores, folded from −∞. -/
def rowMax (b h : Fin 8) (n : Fin 1024) : EReal :=
  (Finset.univ : Finset (Fin 1024)).fold max ninf (fun k => score qf kf b h n k)

/-- The exponential of a score less its row's maximum. -/
def expo (b h : Fin 8) (n k : Fin 1024) : EReal := Ideal.exp (score qf kf b h n k - rowMax qf kf b h n)

/-- The sum of a row's exponentials. -/
def denom (b h : Fin 8) (n : Fin 1024) : EReal := ∑ k : Fin 1024, expo qf kf b h n k

/-- The softmax weight. -/
def prob (b h : Fin 8) (n k : Fin 1024) : EReal := Ideal.div (expo qf kf b h n k) (denom qf kf b h n)

/-- The attended value: the weighted sum of the values over the key positions. -/
def att (b : Fin 8) (n : Fin 1024) (h : Fin 8) (d : Fin 96) : EReal := ∑ k : Fin 1024, prob qf kf b h n k * vf b k h d

end core

/-- Attention of ONE batch element given as three [1, 1024, 768] blocks (heads side by side in the columns). -/
def attBlk (q k v : (⟨3, ![1, 1024, 768]⟩ : Shape).Idx → EReal) : (⟨3, ![1, 1024, 768]⟩ : Shape).Idx → EReal := fun y =>
  att (fun _ n h d => q (ix3 (0 : Fin 1) n (col h d))) (fun _ n h d => k (ix3 (0 : Fin 1) n (col h d)))
    (fun _ n h d => v (ix3 (0 : Fin 1) n (col h d))) 0 ⟨(y 1).val, (y 1).isLt⟩
    (hd ⟨(y 2).val, (y 2).isLt⟩) (ln ⟨(y 2).val, (y 2).isLt⟩)

/-! ## The two linear maps -/

/-- Row `r`, column `j` of `X · W + B` for an [M, 768] matrix `X`, a [768, N] matrix `W` and a bias `B` of length N. -/
def linRow {M N : ℕ} (X : (⟨2, ![M, 768]⟩ : Shape).Idx → EReal) (W : (⟨2, ![768, N]⟩ : Shape).Idx → EReal)
    (B : (⟨1, ![N]⟩ : Shape).Idx → EReal) (r : Fin M) (j : Fin N) : EReal :=
  (∑ c : Fin 768, X (ix2 r c) * W (ix2 c j)) + B (ix1 j)

section whole

variable (x : (⟨3, ![8, 1024, 768]⟩ : Shape).Idx → EReal) (w : (⟨2, ![768, 2304]⟩ : Shape).Idx → EReal)
  (bq : (⟨1, ![2304]⟩ : Shape).Idx → EReal) (wp : (⟨2, ![768, 768]⟩ : Shape).Idx → EReal)
  (bp : (⟨1, ![768]⟩ : Shape).Idx → EReal)

/-- The fused linear map at batch `b`, position `n`, fused column `j`. -/
def lin (b : Fin 8) (n : Fin 1024) (j : Fin 2304) : EReal := (∑ c : Fin 768, x (ix3 b n c) * w (ix2 c j)) + bq (ix1 j)

/-- Queries (scaled), keys and values. -/
def qv (b : Fin 8) (n : Fin 1024) (h : Fin 8) (d : Fin 96) : EReal := lin x w bq b n (qcol h d) * scl
def kv (b : Fin 8) (n : Fin 1024) (h : Fin 8) (d : Fin 96) : EReal := lin x w bq b n (kcol h d)
def vv (b : Fin 8) (n : Fin 1024) (h : Fin 8) (d : Fin 96) : EReal := lin x w bq b n (vcol h d)

/-- The result at batch `b`, position `n`, column `j`. -/
def out (b : Fin 8) (n : Fin 1024) (j : Fin 768) : EReal :=
  (∑ c : Fin 768, att (qv x w bq) (kv x w bq) (vv x w bq) b n (hd c) (ln c) * wp (ix2 c j)) + bp (ix1 j)

/-- The result as an [8, 1024, 768] array. -/
def outArr : (⟨3, ![8, 1024, 768]⟩ : Shape).Idx → EReal := fun i =>
  out x w bq wp bp ⟨(i 0).val, (i 0).isLt⟩ ⟨(i 1).val, (i 1).isLt⟩ ⟨(i 2).val, (i 2).isLt⟩

end whole

end Cert.Attn

end
-- ==== Proof.LinearArrays.lean ====
/-
  The fused linear kernel's three output arrays.

  The kernel runs over 16 blocks of 512 rows.  At block `t` its body sees rows `512 t … 512 t + 511` of the
  [8192, 768] input, the whole [768, 2304] weight and the whole bias, and leaves in each of its three output
  blocks the rows' products with the weight, plus the bias, read at the query columns (times the scale), the
  key columns and the value columns.  Row `r` of an output array is written by block `r / 512` and by no
  other, and the blocks fill the array, so each array ends as ONE function of the operand arrays:
  `qArr`, `projArr kc`, `projArr vc`.  The body's arithmetic is taken as a hypothesis here (`hbody`),
  so that this module depends on nothing but the pipeline's shape.
-/
import proofs.«181797_j90005334655017_2_alg».proof.Proof.Gen.KernelIdeal.Frame
import proofs.«181797_j90005334655017_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The fused linear map `X · W + B` read at the feature columns `f j`, as a whole [8192, 768] array. -/
def projArr (f : Fin 768 → Fin 2304) (X : (⟨2, ![8192, 768]⟩ : Shape).Idx → EReal) (W : (⟨2, ![768, 2304]⟩ : Shape).Idx → EReal)
    (B : (⟨1, ![2304]⟩ : Shape).Idx → EReal) : (⟨2, ![8192, 768]⟩ : Shape).Idx → EReal := fun i =>
  Attn.linRow X W B ⟨(i 0).val, (i 0).isLt⟩ (f ⟨(i 1).val, (i 1).isLt⟩)

/-- The queries: the query columns, multiplied by the scale. -/
def qArr (X : (⟨2, ![8192, 768]⟩ : Shape).Idx → EReal) (W : (⟨2, ![768, 2304]⟩ : Shape).Idx → EReal)
    (B : (⟨1, ![2304]⟩ : Shape).Idx → EReal) : (⟨2, ![8192, 768]⟩ : Shape).Idx → EReal := fun i =>
  projArr Attn.qc X W B i * Attn.scl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `r` of point `t`'s block of rows is row `512 t + r` of the array; the weight and the bias are whole. -/
theorem rowblk0 (c : Dev nD) (t : Fin cfg0.N) (r : Fin 512) (col : Fin 2304) (R : Fin 8192) (hR : R.val = t.val * 512 + r.val) :
    Attn.linRow (iblk0 V c 0 t) (iblk0 V c 1 t) (iblk0 V c 2 t) r col
      = Attn.linRow (V c main_v0) (V c main_v1) (V c main_arg2) R col := by
  obtain ⟨e0, e1, e2, e3, e4, -⟩ := idx_facts0 t
  unfold Attn.linRow
  refine congrArg₂ (· + ·) (Finset.sum_congr rfl fun k _ => congrArg₂ (· * ·) ?_ ?_) ?_
  · show V c main_v0 (((cfg0.win 0).blk t).view.emb (ix2 r k)) = _
    refine congrArg _ (funext fun a => Fin.ext ?_)
    match a with
    | ⟨0, _⟩ => show win0_0.index t (0 : Fin 2) * 512 + 1 * r.val = R.val; omega
    | ⟨1, _⟩ => show win0_0.index t (1 : Fin 2) * 768 + 1 * k.val = k.val; omega
  · show V c main_v1 (((cfg0.win 1).blk t).view.emb (ix2 k col)) = _
    refine congrArg _ (funext fun a => Fin.ext ?_)
    match a with
    | ⟨0, _⟩ => show win0_1.index t (0 : Fin 2) * 768 + 1 * k.val = k.val; omega
    | ⟨1, _⟩ => show win0_1.index t (1 : Fin 2) * 2304 + 1 * col.val = col.val; omega
  · show V c main_arg2 (((cfg0.win 2).blk t).view.emb (ix1 col)) = _
    refine congrArg _ (funext fun a => Fin.ext ?_)
    match a with
    | ⟨0, _⟩ => show win0_2.index t (0 : Fin 1) * 2304 + 1 * col.val = col.val; omega

section flushed
variable (c : Dev nD) (t : Fin cfg0.N)

theorem flushed0_3 (hbody : ∀ (x0 : Vec Ideal S512x768 .f32) (x1 : Vec Ideal S768x2304 .bf16) (x2 : Vec Ideal S2304 .f32),
      out0_3 (F := Ideal) x0 x1 x2 = fun y => Attn.linRow x0 x1 x2 ⟨(y 0).val, (y 0).isLt⟩ (Attn.qc ⟨(y 1).val, (y 1).isLt⟩) * Attn.scl) :
    (dat0 V c).flushed 3 t = ((cfg0.win 3).blk t).view.read (Elt Ideal) (qArr (V c main_v0) (V c main_v1) (V c main_arg2)) := by
  show (cfg0.win 3).cut (grid0.coords t) ((dat0 V c).after 3 t) = _
  rw [after0_3, hbody]
  obtain ⟨-, -, -, -, -, e5, e6, -⟩ := idx_facts0 t
  funext j
  have hj0 : (j 0).val < 512 := (j 0).isLt
  have hj1 : (j 1).val < 768 := (j 1).isLt
  show Attn.linRow (iblk0 V c 0 t) (iblk0 V c 1 t) (iblk0 V c 2 t) ⟨(j 0).val, hj0⟩ (Attn.qc ⟨(j 1).val, hj1⟩) * Attn.scl
    = Attn.linRow (V c main_v0) (V c main_v1) (V c main_arg2) ⟨((((cfg0.win 3).blk t).view.emb j) 0).val, ((((cfg0.win 3).blk t).view.emb j) 0).isLt⟩ (Attn.qc ⟨((((cfg0.win 3).blk t).view.emb j) 1).val, ((((cfg0.win 3).blk t).view.emb j) 1).isLt⟩) * Attn.scl
  have hC : (⟨((((cfg0.win 3).blk t).view.emb j) 1).val, ((((cfg0.win 3).blk t).view.emb j) 1).isLt⟩ : Fin 768) = ⟨(j 1).val, hj1⟩ := Fin.ext (by
    show win0_3.index t (1 : Fin 2) * 768 + 1 * (j 1).val = (j 1).val; omega)
  rw [hC]
  refine congrArg (· * Attn.scl) (rowblk0 V c t ⟨(j 0).val, hj0⟩ _ _ ?_)
  show win0_3.index t (0 : Fin 2) * 512 + 1 * (j 0).val = t.val * 512 + (j 0).val
  omega

theorem flushed0_4 (hbody : ∀ (x0 : Vec Ideal S512x768 .f32) (x1 : Vec Ideal S768x2304 .bf16) (x2 : Vec Ideal S2304 .f32),
      out0_4 (F := Ideal) x0 x1 x2 = fun y => Attn.linRow x0 x1 x2 ⟨(y 0).val, (y 0).isLt⟩ (Attn.kc ⟨(y 1).val, (y 1).isLt⟩)) :
    (dat0 V c).flushed 4 t = ((cfg0.win 4).blk t).view.read (Elt Ideal) (projArr Attn.kc (V c main_v0) (V c main_v1) (V c main_arg2)) := by
  show (cfg0.win 4).cut (grid0.coords t) ((dat0 V c).after 4 t) = _
  rw [after0_4, hbody]
  obtain ⟨-, -, -, -, -, -, -, e5, e6, -⟩ := idx_facts0 t
  funext j
  have hj0 : (j 0).val < 512 := (j 0).isLt
  have hj1 : (j 1).val < 768 := (j 1).isLt
  show Attn.linRow (iblk0 V c 0 t) (iblk0 V c 1 t) (iblk0 V c 2 t) ⟨(j 0).val, hj0⟩ (Attn.kc ⟨(j 1).val, hj1⟩)
    = Attn.linRow (V c main_v0) (V c main_v1) (V c main_arg2) ⟨((((cfg0.win 4).blk t).view.emb j) 0).val, ((((cfg0.win 4).blk t).view.emb j) 0).isLt⟩ (Attn.kc ⟨((((cfg0.win 4).blk t).view.emb j) 1).val, ((((cfg0.win 4).blk t).view.emb j) 1).isLt⟩)
  have hC : (⟨((((cfg0.win 4).blk t).view.emb j) 1).val, ((((cfg0.win 4).blk t).view.emb j) 1).isLt⟩ : Fin 768) = ⟨(j 1).val, hj1⟩ := Fin.ext (by
    show win0_4.index t (1 : Fin 2) * 768 + 1 * (j 1).val = (j 1).val; omega)
  rw [hC]
  refine rowblk0 V c t ⟨(j 0).val, hj0⟩ _ _ ?_
  show win0_4.index t (0 : Fin 2) * 512 + 1 * (j 0).val = t.val * 512 + (j 0).val
  omega

theorem flushed0_5 (hbody : ∀ (x0 : Vec Ideal S512x768 .f32) (x1 : Vec Ideal S768x2304 .bf16) (x2 : Vec Ideal S2304 .f32),
      out0_5 (F := Ideal) x0 x1 x2 = fun y => Attn.linRow x0 x1 x2 ⟨(y 0).val, (y 0).isLt⟩ (Attn.vc ⟨(y 1).val, (y 1).isLt⟩)) :
    (dat0 V c).flushed 5 t = ((cfg0.win 5).blk t).view.read (Elt Ideal) (projArr Attn.vc (V c main_v0) (V c main_v1) (V c main_arg2)) := by
  show (cfg0.win 5).cut (grid0.coords t) ((dat0 V c).after 5 t) = _
  rw [after0_5, hbody]
  obtain ⟨-, -, -, -, -, -, -, -, -, e5, e6⟩ := idx_facts0 t
  funext j
  have hj0 : (j 0).val < 512 := (j 0).isLt
  have hj1 : (j 1).val < 768 := (j 1).isLt
  show Attn.linRow (iblk0 V c 0 t) (iblk0 V c 1 t) (iblk0 V c 2 t) ⟨(j 0).val, hj0⟩ (Attn.vc ⟨(j 1).val, hj1⟩)
    = Attn.linRow (V c main_v0) (V c main_v1) (V c main_arg2) ⟨((((cfg0.win 5).blk t).view.emb j) 0).val, ((((cfg0.win 5).blk t).view.emb j) 0).isLt⟩ (Attn.vc ⟨((((cfg0.win 5).blk t).view.emb j) 1).val, ((((cfg0.win 5).blk t).view.emb j) 1).isLt⟩)
  have hC : (⟨((((cfg0.win 5).blk t).view.emb j) 1).val, ((((cfg0.win 5).blk t).view.emb j) 1).isLt⟩ : Fin 768) = ⟨(j 1).val, hj1⟩ := Fin.ext (by
    show win0_5.index t (1 : Fin 2) * 768 + 1 * (j 1).val = (j 1).val; omega)
  rw [hC]
  refine rowblk0 V c t ⟨(j 0).val, hj0⟩ _ _ ?_
  show win0_5.index t (0 : Fin 2) * 512 + 1 * (j 0).val = t.val * 512 + (j 0).val
  omega

end flushed

/-- An index of an output array lies in point `t`'s block of rows iff its row lies in the block's range. -/
theorem mem_blk0_3 (t : Fin cfg0.N) (i : S8192x768.Idx) :
    i ∈ ((cfg0.win 3).blk t).view.set ↔ ∀ a : Fin 2, win0_3.index t a * S512x768.size a ≤ (i a).val ∧ (i a).val < win0_3.index t a * S512x768.size a + S512x768.size a := by
  show i ∈ ((View.whole main_v3_0).slice (win0_3.rect t)).set ↔ _
  rw [View.set_slice_whole, Rect.mem_set_unit]
  exact Iff.rfl
theorem mem_blk0_4 (t : Fin cfg0.N) (i : S8192x768.Idx) :
    i ∈ ((cfg0.win 4).blk t).view.set ↔ ∀ a : Fin 2, win0_4.index t a * S512x768.size a ≤ (i a).val ∧ (i a).val < win0_4.index t a * S512x768.size a + S512x768.size a := by
  show i ∈ ((View.whole main_v3_1).slice (win0_4.rect t)).set ↔ _
  rw [View.set_slice_whole, Rect.mem_set_unit]
  exact Iff.rfl
theorem mem_blk0_5 (t : Fin cfg0.N) (i : S8192x768.Idx) :
    i ∈ ((cfg0.win 5).blk t).view.set ↔ ∀ a : Fin 2, win0_5.index t a * S512x768.size a ≤ (i a).val ∧ (i a).val < win0_5.index t a * S512x768.size a + S512x768.size a := by
  show i ∈ ((View.whole main_v3_2).slice (win0_5.rect t)).set ↔ _
  rw [View.set_slice_whole, Rect.mem_set_unit]
  exact Iff.rfl

/-- Row `r` of an output array is written by the point `r / 512`. -/
theorem pt0_lt (i : S8192x768.Idx) : (i 0).val / 512 < cfg0.N := by
  have hi0 : (i 0).val < 8192 := (i 0).isLt
  show _ < grid0.N; rw [N_0]; omega

theorem final0_3 (hbody : ∀ (x0 : Vec Ideal S512x768 .f32) (x1 : Vec Ideal S768x2304 .bf16) (x2 : Vec Ideal S2304 .f32),
      out0_3 (F := Ideal) x0 x1 x2 = fun y => Attn.linRow x0 x1 x2 ⟨(y 0).val, (y 0).isLt⟩ (Attn.qc ⟨(y 1).val, (y 1).isLt⟩) * Attn.scl)
    (c : Dev nD) : (dat0 V c).arrAt 3 cfg0.N = qArr (V c main_v0) (V c main_v1) (V c main_arg2) :=
  (dat0 V c).arrAt_eq_of_cover 3 _ (fun t _ => flushed0_3 V c t hbody) (fun i => by
    have hi0 : (i 0).val < 8192 := (i 0).isLt
    have hi1 : (i 1).val < 768 := (i 1).isLt
    obtain ⟨-, -, -, -, -, e5, e6, -⟩ := idx_facts0 ⟨(i 0).val / 512, pt0_lt i⟩
    refine ⟨⟨(i 0).val / 512, pt0_lt i⟩, flush0_3 _, ?_⟩
    rw [mem_blk0_3]
    intro a
    match a with
    | ⟨0, _⟩ =>
      show win0_3.index ⟨(i 0).val / 512, pt0_lt i⟩ (0 : Fin 2) * 512 ≤ (i 0).val ∧ (i 0).val < win0_3.index ⟨(i 0).val / 512, pt0_lt i⟩ (0 : Fin 2) * 512 + 512
      rw [e5]; show (i 0).val / 512 * 512 ≤ (i 0).val ∧ (i 0).val < (i 0).val / 512 * 512 + 512; omega
    | ⟨1, _⟩ =>
      show win0_3.index ⟨(i 0).val / 512, pt0_lt i⟩ (1 : Fin 2) * 768 ≤ (i 1).val ∧ (i 1).val < win0_3.index ⟨(i 0).val / 512, pt0_lt i⟩ (1 : Fin 2) * 768 + 768
      rw [e6]; omega)

theorem final0_4 (hbody : ∀ (x0 : Vec Ideal S512x768 .f32) (x1 : Vec Ideal S768x2304 .bf16) (x2 : Vec Ideal S2304 .f32),
      out0_4 (F := Ideal) x0 x1 x2 = fun y => Attn.linRow x0 x1 x2 ⟨(y 0).val, (y 0).isLt⟩ (Attn.kc ⟨(y 1).val, (y 1).isLt⟩))
    (c : Dev nD) : (dat0 V c).arrAt 4 cfg0.N = projArr Attn.kc (V c main_v0) (V c main_v1) (V c main_arg2) :=
  (dat0 V c).arrAt_eq_of_cover 4 _ (fun t _ => flushed0_4 V c t hbody) (fun i => by
    have hi0 : (i 0).val < 8192 := (i 0).isLt
    have hi1 : (i 1).val < 768 := (i 1).isLt
    obtain ⟨-, -, -, -, -, -, -, e5, e6, -⟩ := idx_facts0 ⟨(i 0).val / 512, pt0_lt i⟩
    refine ⟨⟨(i 0).val / 512, pt0_lt i⟩, flush0_4 _, ?_⟩
    rw [mem_blk0_4]
    intro a
    match a with
    | ⟨0, _⟩ =>
      show win0_4.index ⟨(i 0).val / 512, pt0_lt i⟩ (0 : Fin 2) * 512 ≤ (i 0).val ∧ (i 0).val < win0_4.index ⟨(i 0).val / 512, pt0_lt i⟩ (0 : Fin 2) * 512 + 512
      rw [e5]; show (i 0).val / 512 * 512 ≤ (i 0).val ∧ (i 0).val < (i 0).val / 512 * 512 + 512; omega
    | ⟨1, _⟩ =>
      show win0_4.index ⟨(i 0).val / 512, pt0_lt i⟩ (1 : Fin 2) * 768 ≤ (i 1).val ∧ (i 1).val < win0_4.index ⟨(i 0).val / 512, pt0_lt i⟩ (1 : Fin 2) * 768 + 768
      rw [e6]; omega)

theorem final0_5 (hbody : ∀ (x0 : Vec Ideal S512x768 .f32) (x1 : Vec Ideal S768x2304 .bf16) (x2 : Vec Ideal S2304 .f32),
      out0_5 (F := Ideal) x0 x1 x2 = fun y => Attn.linRow x0 x1 x2 ⟨(y 0).val, (y 0).isLt⟩ (Attn.vc ⟨(y 1).val, (y 1).isLt⟩))
    (c : Dev nD) : (dat0 V c).arrAt 5 cfg0.N = projArr Attn.vc (V c main_v0) (V c main_v1) (V c main_arg2) :=
  (dat0 V c).arrAt_eq_of_cover 5 _ (fun t _ => flushed0_5 V c t hbody) (fun i => by
    have hi0 : (i 0).val < 8192 := (i 0).isLt
    have hi1 : (i 1).val < 768 := (i 1).isLt
    obtain ⟨-, -, -, -, -, -, -, -, -, e5, e6⟩ := idx_facts0 ⟨(i 0).val / 512, pt0_lt i⟩
    refine ⟨⟨(i 0).val / 512, pt0_lt i⟩, flush0_5 _, ?_⟩
    rw [mem_blk0_5]
    intro a
    match a with
    | ⟨0, _⟩ =>
      show win0_5.index ⟨(i 0).val / 512, pt0_lt i⟩ (0 : Fin 2) * 512 ≤ (i 0).val ∧ (i 0).val < win0_5.index ⟨(i 0).val / 512, pt0_lt i⟩ (0 : Fin 2) * 512 + 512
      rw [e5]; show (i 0).val / 512 * 512 ≤ (i 0).val ∧ (i 0).val < (i 0).val / 512 * 512 + 512; omega
    | ⟨1, _⟩ =>
      show win0_5.index ⟨(i 0).val / 512, pt0_lt i⟩ (1 : Fin 2) * 768 ≤ (i 1).val ∧ (i 1).val < win0_5.index ⟨(i 0).val / 512, pt0_lt i⟩ (1 : Fin 2) * 768 + 768
      rw [e6]; omega)

end Cert.KernelIdeal.Hand

end
-- ==== Proof.AttnCongr.lean ====
/-
  The attended value at batch `b` reads the queries, keys and values of batch `b` only: two families that agree
  there give the same value.
-/
import proofs.«181797_j90005334655017_2_alg».proof.Proof.Spec

noncomputable section

namespace Cert.Attn

variable {qf kf vf qf' kf' vf' : Fin 8 → Fin 1024 → Fin 8 → Fin 96 → EReal} {b b' : Fin 8}

theorem att_congr (hq : qf b = qf' b') (hk : kf b = kf' b') (hv : vf b = vf' b') (n : Fin 1024) (h : Fin 8) (d : Fin 96) :
    att qf kf vf b n h d = att qf' kf' vf' b' n h d := by
  unfold att prob denom expo rowMax score
  simp only [hq, hk, hv]

end Cert.Attn

end
-- ==== Proof.AttnArray.lean ====
/-
  The attention kernel's output array.

  The kernel runs over the 8 batch elements.  At point `t` its body sees batch `t` of the query, key and value
  arrays as three [1, 1024, 768] blocks and leaves in its output block the attention of those blocks (all
  eight heads, side by side in the columns).  Batch `b` of the output array is written by point `b` and by no
  other, so the array ends as `attArr` of the three operand arrays.  The body's arithmetic is a hypothesis
  here (`hbody`).
-/
import proofs.«181797_j90005334655017_2_alg».proof.Proof.Gen.KernelIdeal.Frame
import proofs.«181797_j90005334655017_2_alg».proof.Proof.Spec
import Idealize.ShloMosaic.Lib.Pipeline.Value
import proofs.«181797_j90005334655017_2_alg».proof.Proof.AttnCongr
set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Attention of whole [8, 1024, 768] query, key and value arrays (heads side by side in the columns). -/
def attArr (q k v : (⟨3, ![8, 1024, 768]⟩ : Shape).Idx → EReal) : (⟨3, ![8, 1024, 768]⟩ : Shape).Idx → EReal := fun i =>
  Attn.att (fun b n h d => q (ix3 b n (Attn.col h d))) (fun b n h d => k (ix3 b n (Attn.col h d)))
    (fun b n h d => v (ix3 b n (Attn.col h d))) ⟨(i 0).val, (i 0).isLt⟩ ⟨(i 1).val, (i 1).isLt⟩
    (Attn.hd ⟨(i 2).val, (i 2).isLt⟩) (Attn.ln ⟨(i 2).val, (i 2).isLt⟩)

theorem idx_facts1 : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- Point `t` works on batch element `t`: its output block is the attention of the three input blocks, which are
    batch `t` of the three arrays. -/
theorem flushed1 (hbody : ∀ (x0 x1 x2 : Vec Ideal S1x1024x768 .bf16), out1_3 (F := Ideal) x0 x1 x2 = Attn.attBlk x0 x1 x2)
    (c : Dev nD) (t : Fin cfg1.N) :
    (dat1 V c).flushed 3 t = ((cfg1.win 3).blk t).view.read (Elt Ideal) (attArr (V c main_v4) (V c main_v5) (V c main_v6)) := by
  show (cfg1.win 3).cut (grid1.coords t) ((dat1 V c).after 3 t) = _
  rw [after1_3, hbody]
  obtain ⟨a0, a1, a2, b0, b1, b2, c0, c1, c2, d0, d1, d2⟩ := idx_facts1 t
  funext j
  have hj0 : (j 0).val < 1 := (j 0).isLt
  have hj1 : (j 1).val < 1024 := (j 1).isLt
  have hj2 : (j 2).val < 768 := (j 2).isLt
  have ht : t.val < 8 := t.isLt
  show Attn.att (fun _ n h d => iblk1 V c 0 t (ix3 (0 : Fin 1) n (Attn.col h d))) (fun _ n h d => iblk1 V c 1 t (ix3 (0 : Fin 1) n (Attn.col h d)))
      (fun _ n h d => iblk1 V c 2 t (ix3 (0 : Fin 1) n (Attn.col h d))) 0 ⟨(j 1).val, hj1⟩ (Attn.hd ⟨(j 2).val, hj2⟩) (Attn.ln ⟨(j 2).val, hj2⟩)
    = Attn.att (fun b n h d => V c main_v4 (ix3 b n (Attn.col h d))) (fun b n h d => V c main_v5 (ix3 b n (Attn.col h d)))
      (fun b n h d => V c main_v6 (ix3 b n (Attn.col h d))) ⟨((((cfg1.win 3).blk t).view.emb j) 0).val, ((((cfg1.win 3).blk t).view.emb j) 0).isLt⟩
      ⟨((((cfg1.win 3).blk t).view.emb j) 1).val, ((((cfg1.win 3).blk t).view.emb j) 1).isLt⟩
      (Attn.hd ⟨((((cfg1.win 3).blk t).view.emb j) 2).val, ((((cfg1.win 3).blk t).view.emb j) 2).isLt⟩)
      (Attn.ln ⟨((((cfg1.win 3).blk t).view.emb j) 2).val, ((((cfg1.win 3).blk t).view.emb j) 2).isLt⟩)
  have hB : (⟨((((cfg1.win 3).blk t).view.emb j) 0).val, ((((cfg1.win 3).blk t).view.emb j) 0).isLt⟩ : Fin 8) = ⟨t.val, ht⟩ := Fin.ext (by
    show win1_3.index t (0 : Fin 3) * 1 + 1 * (j 0).val = t.val; omega)
  have hN : (⟨((((cfg1.win 3).blk t).view.emb j) 1).val, ((((cfg1.win 3).blk t).view.emb j) 1).isLt⟩ : Fin 1024) = ⟨(j 1).val, hj1⟩ := Fin.ext (by
    show win1_3.index t (1 : Fin 3) * 1024 + 1 * (j 1).val = (j 1).val; omega)
  have hC : (⟨((((cfg1.win 3).blk t).view.emb j) 2).val, ((((cfg1.win 3).blk t).view.emb j) 2).isLt⟩ : Fin 768) = ⟨(j 2).val, hj2⟩ := Fin.ext (by
    show win1_3.index t (2 : Fin 3) * 768 + 1 * (j 2).val = (j 2).val; omega)
  rw [hB, hN, hC]
  refine Attn.att_congr ?_ ?_ ?_ _ _ _
  · funext n h d
    show V c main_v4 (((cfg1.win 0).blk t).view.emb (ix3 (0 : Fin 1) n (Attn.col h d))) = _
    refine congrArg _ (funext fun a => Fin.ext ?_)
    match a with
    | ⟨0, _⟩ => show win1_0.index t (0 : Fin 3) * 1 + 1 * 0 = t.val; omega
    | ⟨1, _⟩ => show win1_0.index t (1 : Fin 3) * 1024 + 1 * n.val = n.val; omega
    | ⟨2, _⟩ => show win1_0.index t (2 : Fin 3) * 768 + 1 * (Attn.col h d).val = (Attn.col h d).val; omega
  · funext n h d
    show V c main_v5 (((cfg1.win 1).blk t).view.emb (ix3 (0 : Fin 1) n (Attn.col h d))) = _
    refine congrArg _ (funext fun a => Fin.ext ?_)
    match a with
    | ⟨0, _⟩ => show win1_1.index t (0 : Fin 3) * 1 + 1 * 0 = t.val; omega
    | ⟨1, _⟩ => show win1_1.index t (1 : Fin 3) * 1024 + 1 * n.val = n.val; omega
    | ⟨2, _⟩ => show win1_1.index t (2 : Fin 3) * 768 + 1 * (Attn.col h d).val = (Attn.col h d).val; omega
  · funext n h d
    show V c main_v6 (((cfg1.win 2).blk t).view.emb (ix3 (0 : Fin 1) n (Attn.col h d))) = _
    refine congrArg _ (funext fun a => Fin.ext ?_)
    match a with
    | ⟨0, _⟩ => show win1_2.index t (0 : Fin 3) * 1 + 1 * 0 = t.val; omega
    | ⟨1, _⟩ => show win1_2.index t (1 : Fin 3) * 1024 + 1 * n.val = n.val; omega
    | ⟨2, _⟩ => show win1_2.index t (2 : Fin 3) * 768 + 1 * (Attn.col h d).val = (Attn.col h d).val; omega

/-- An index of the attended array lies in point `t`'s block iff each coordinate lies in the block's range. -/
theorem mem_blk1 (t : Fin cfg1.N) (i : S8x1024x768.Idx) :
    i ∈ ((cfg1.win 3).blk t).view.set ↔ ∀ a : Fin 3, win1_3.index t a * S1x1024x768.size a ≤ (i a).val ∧ (i a).val < win1_3.index t a * S1x1024x768.size a + S1x1024x768.size a := by
  show i ∈ ((View.whole main_v7).slice (win1_3.rect t)).set ↔ _
  rw [View.set_slice_whole, Rect.mem_set_unit]
  exact Iff.rfl

theorem final1 (hbody : ∀ (x0 x1 x2 : Vec Ideal S1x1024x768 .bf16), out1_3 (F := Ideal) x0 x1 x2 = Attn.attBlk x0 x1 x2)
    (c : Dev nD) : (dat1 V c).arrAt 3 cfg1.N = attArr (V c main_v4) (V c main_v5) (V c main_v6) :=
  (dat1 V c).arrAt_eq_of_cover 3 _ (fun t _ => flushed1 V hbody c t) (fun i => by
    have hi0 : (i 0).val < 8 := (i 0).isLt
    have hi1 : (i 1).val < 1024 := (i 1).isLt
    have hi2 : (i 2).val < 768 := (i 2).isLt
    have hlt : (i 0).val < cfg1.N := by show _ < grid1.N; rw [N_1]; omega
    obtain ⟨-, -, -, -, -, -, -, -, -, d0, d1, d2⟩ := idx_facts1 ⟨(i 0).val, hlt⟩
    refine ⟨⟨(i 0).val, hlt⟩, flush1_3 _, ?_⟩
    rw [mem_blk1]
    intro a
    match a with
    | ⟨0, _⟩ =>
      show win1_3.index ⟨(i 0).val, hlt⟩ (0 : Fin 3) * 1 ≤ (i 0).val ∧ (i 0).val < win1_3.index ⟨(i 0).val, hlt⟩ (0 : Fin 3) * 1 + 1
      rw [d0]; show (i 0).val * 1 ≤ (i 0).val ∧ (i 0).val < (i 0).val * 1 + 1; omega
    | ⟨1, _⟩ =>
      show win1_3.index ⟨(i 0).val, hlt⟩ (1 : Fin 3) * 1024 ≤ (i 1).val ∧ (i 1).val < win1_3.index ⟨(i 0).val, hlt⟩ (1 : Fin 3) * 1024 + 1024
      rw [d1]; omega
    | ⟨2, _⟩ =>
      show win1_3.index ⟨(i 0).val, hlt⟩ (2 : Fin 3) * 768 ≤ (i 2).val ∧ (i 2).val < win1_3.index ⟨(i 0).val, hlt⟩ (2 : Fin 3) * 768 + 768
      rw [d2]; omega)

end Cert.KernelIdeal.Hand

end
-- ==== Proof.OutArray.lean ====
/-
  The output linear kernel's array.

  The kernel runs over 8 blocks of 1024 rows.  At block `t` its body sees rows `1024 t … 1024 t + 1023` of the
  [8192, 768] attended array, the whole [768, 768] weight and the whole bias, and leaves in its output block
  those rows' products with the weight, plus the bias.  Row `r` of the output array is written by block
  `r / 1024`, so the array ends as `linArr` of the operand arrays.  The body's arithmetic is a hypothesis here
  (`hbody`).
-/
import proofs.«181797_j90005334655017_2_alg».proof.Proof.Gen.KernelIdeal.Frame
import proofs.«181797_j90005334655017_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- `A · W + B` as a whole [8192, N] array. -/
def linArr {N : ℕ} (A : (⟨2, ![8192, 768]⟩ : Shape).Idx → EReal) (W : (⟨2, ![768, N]⟩ : Shape).Idx → EReal)
    (B : (⟨1, ![N]⟩ : Shape).Idx → EReal) : (⟨2, ![8192, N]⟩ : Shape).Idx → EReal := fun i =>
  Attn.linRow A W B ⟨(i 0).val, (i 0).isLt⟩ ⟨(i 1).val, (i 1).isLt⟩

theorem idx_facts2 : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

theorem flushed2 (hbody : ∀ (x0 : Vec Ideal S1024x768 .bf16) (x1 : Vec Ideal S768x768 .bf16) (x2 : Vec Ideal S768 .f32),
      out2_3 (F := Ideal) x0 x1 x2 = fun y => Attn.linRow x0 x1 x2 ⟨(y 0).val, (y 0).isLt⟩ ⟨(y 1).val, (y 1).isLt⟩)
    (c : Dev nD) (t : Fin cfg2.N) :
    (dat2 V c).flushed 3 t = ((cfg2.win 3).blk t).view.read (Elt Ideal) (linArr (V c main_v8) (V c main_v2) (V c main_arg4)) := by
  show (cfg2.win 3).cut (grid2.coords t) ((dat2 V c).after 3 t) = _
  rw [after2_3, hbody]
  obtain ⟨e0, e1, e2, e3, e4, e5, e6⟩ := idx_facts2 t
  funext j
  have hj0 : (j 0).val < 1024 := (j 0).isLt
  have hj1 : (j 1).val < 768 := (j 1).isLt
  have ht : t.val < 8 := t.isLt
  show Attn.linRow (iblk2 V c 0 t) (iblk2 V c 1 t) (iblk2 V c 2 t) ⟨(j 0).val, hj0⟩ ⟨(j 1).val, hj1⟩
    = Attn.linRow (V c main_v8) (V c main_v2) (V c main_arg4) ⟨((((cfg2.win 3).blk t).view.emb j) 0).val, ((((cfg2.win 3).blk t).view.emb j) 0).isLt⟩ ⟨((((cfg2.win 3).blk t).view.emb j) 1).val, ((((cfg2.win 3).blk t).view.emb j) 1).isLt⟩
  have hR : ((((cfg2.win 3).blk t).view.emb j) 0).val = t.val * 1024 + (j 0).val := by
    show win2_3.index t (0 : Fin 2) * 1024 + 1 * (j 0).val = _
    omega
  have hC : ((((cfg2.win 3).blk t).view.emb j) 1).val = (j 1).val := by
    show win2_3.index t (1 : Fin 2) * 768 + 1 * (j 1).val = _
    omega
  unfold Attn.linRow
  refine congrArg₂ (· + ·) (Finset.sum_congr rfl fun k _ => congrArg₂ (· * ·) ?_ ?_) ?_
  · show V c main_v8 (((cfg2.win 0).blk t).view.emb (ix2 ⟨(j 0).val, hj0⟩ k)) = _
    refine congrArg _ (funext fun a => Fin.ext ?_)
    match a with
    | ⟨0, _⟩ => show win2_0.index t (0 : Fin 2) * 1024 + 1 * (j 0).val = ((((cfg2.win 3).blk t).view.emb j) 0).val; omega
    | ⟨1, _⟩ => show win2_0.index t (1 : Fin 2) * 768 + 1 * k.val = k.val; omega
  · show V c main_v2 (((cfg2.win 1).blk t).view.emb (ix2 k ⟨(j 1).val, hj1⟩)) = _
    refine congrArg _ (funext fun a => Fin.ext ?_)
    match a with
    | ⟨0, _⟩ => show win2_1.index t (0 : Fin 2) * 768 + 1 * k.val = k.val; omega
    | ⟨1, _⟩ => show win2_1.index t (1 : Fin 2) * 768 + 1 * (j 1).val = ((((cfg2.win 3).blk t).view.emb j) 1).val; omega
  · show V c main_arg4 (((cfg2.win 2).blk t).view.emb (ix1 ⟨(j 1).val, hj1⟩)) = _
    refine congrArg _ (funext fun a => Fin.ext ?_)
    match a with
    | ⟨0, _⟩ => show win2_2.index t (0 : Fin 1) * 768 + 1 * (j 1).val = ((((cfg2.win 3).blk t).view.emb j) 1).val; omega

/-- An index of the result array lies in point `t`'s block iff each coordinate lies in the block's range. -/
theorem mem_blk2 (t : Fin cfg2.N) (i : S8192x768.Idx) :
    i ∈ ((cfg2.win 3).blk t).view.set ↔ ∀ a : Fin 2, win2_3.index t a * S1024x768.size a ≤ (i a).val ∧ (i a).val < win2_3.index t a * S1024x768.size a + S1024x768.size a := by
  show i ∈ ((View.whole main_v9).slice (win2_3.rect t)).set ↔ _
  rw [View.set_slice_whole, Rect.mem_set_unit]
  exact Iff.rfl

theorem final2 (hbody : ∀ (x0 : Vec Ideal S1024x768 .bf16) (x1 : Vec Ideal S768x768 .bf16) (x2 : Vec Ideal S768 .f32),
      out2_3 (F := Ideal) x0 x1 x2 = fun y => Attn.linRow x0 x1 x2 ⟨(y 0).val, (y 0).isLt⟩ ⟨(y 1).val, (y 1).isLt⟩)
    (c : Dev nD) :
    (dat2 V c).arrAt 3 cfg2.N = linArr (V c main_v8) (V c main_v2) (V c main_arg4) :=
  (dat2 V c).arrAt_eq_of_cover 3 _ (fun t _ => flushed2 V hbody c t) (fun i => by
    have hi0 : (i 0).val < 8192 := (i 0).isLt
    have hi1 : (i 1).val < 768 := (i 1).isLt
    have hlt : (i 0).val / 1024 < cfg2.N := by show _ < grid2.N; rw [N_2]; omega
    obtain ⟨e0, e1, e2, e3, e4, e5, e6⟩ := idx_facts2 ⟨(i 0).val / 1024, hlt⟩
    refine ⟨⟨(i 0).val / 1024, hlt⟩, flush2_3 _, ?_⟩
    rw [mem_blk2]
    intro a
    match a with
    | ⟨0, _⟩ =>
      show win2_3.index ⟨(i 0).val / 1024, hlt⟩ (0 : Fin 2) * 1024 ≤ (i 0).val ∧ (i 0).val < win2_3.index ⟨(i 0).val / 1024, hlt⟩ (0 : Fin 2) * 1024 + 1024
      rw [e5]; show (i 0).val / 1024 * 1024 ≤ (i 0).val ∧ (i 0).val < (i 0).val / 1024 * 1024 + 1024; omega
    | ⟨1, _⟩ =>
      show win2_3.index ⟨(i 0).val / 1024, hlt⟩ (1 : Fin 2) * 768 ≤ (i 1).val ∧ (i 1).val < win2_3.index ⟨(i 0).val / 1024, hlt⟩ (1 : Fin 2) * 768 + 768
      rw [e6]; omega)

end Cert.KernelIdeal.Hand

end
-- ==== Proof.Compose.lean ====
/-
  The three kernels' array functions, chained through the re-layouts, are the attention function.

  Row `r = 1024 b + n` of an [8192, 768] array is position `n` of batch `b` of its [8, 1024, 768] view, and back.
  Read through those views: the fused linear kernel's outputs at batch `b`, position `n`, column `h·96 + d` are
  the scaled query, the key and the value of head `h`, lane `d`; the attention kernel's output at
  `(b, n, c)` is then the attended value of head `c / 96`, lane `c % 96`; and the output linear kernel's row
  `1024 b + n` is the result at `(b, n, ·)`.
-/
import proofs.«181797_j90005334655017_2_alg».proof.Proof.LinearArrays
import proofs.«181797_j90005334655017_2_alg».proof.Proof.AttnArray
import proofs.«181797_j90005334655017_2_alg».proof.Proof.OutArray
import Idealize.ShloMosaic.Lib.Pipeline.Value

set_option maxRecDepth 16384

noncomputable section

namespace Cert.KernelIdeal.Hand

open Cert.KernelIdeal
open Idealize.ShloMosaic Idealize.ShloMosaic.ValueIdx

section casts
variable {α : Type}

/-- Row `r` of the [8192, 768] view is batch `r / 1024`, position `r % 1024` of the [8, 1024, 768] array. -/
theorem cast_rows_apply (x : S8x1024x768.Idx → α) (h : S8x1024x768.ShapeCasts S8192x768) (r : Fin 8192) (j : Fin 768) :
    shapeCast S8192x768 x h (ix2 r j)
      = x (ix3 (⟨r.val / 1024, by have := r.isLt; omega⟩ : Fin 8) (⟨r.val % 1024, Nat.mod_lt _ (by decide)⟩ : Fin 1024) j) :=
  shapeCast_apply x h _ _ (by
    rw [Shape.rowMajor_val_three, Shape.rowMajor_val_two]
    show (r.val / 1024 * 1024 + r.val % 1024) * 768 + j.val = r.val * 768 + j.val
    omega)

/-- Batch `b`, position `n` of the [8, 1024, 768] view is row `1024 b + n` of the [8192, 768] array. -/
theorem cast_batch_apply (x : S8192x768.Idx → α) (h : S8192x768.ShapeCasts S8x1024x768) (b : Fin 8) (n : Fin 1024) (j : Fin 768) :
    shapeCast S8x1024x768 x h (ix3 b n j)
      = x (ix2 (⟨b.val * 1024 + n.val, by have := b.isLt; have := n.isLt; omega⟩ : Fin 8192) j) :=
  shapeCast_apply x h _ _ (by
    rw [Shape.rowMajor_val_three, Shape.rowMajor_val_two]
    show (b.val * 1024 + n.val) * 768 + j.val = (b.val * 1024 + n.val) * 768 + j.val
    rfl)

end casts

variable (a0 : S8x1024x768.Idx → EReal) (a1 : S768x2304.Idx → EReal) (a2 : S2304.Idx → EReal)
  (a3 : S768x768.Idx → EReal) (a4 : S768.Idx → EReal)
  (h32 : S8x1024x768.ShapeCasts S8192x768) (h23 : S8192x768.ShapeCasts S8x1024x768)

/-- The fused linear map of the row view, at row `1024 b + n` and feature column `c`. -/
theorem projArr_entry (f : Fin 768 → Fin 2304) (b : Fin 8) (n : Fin 1024) (c : Fin 768) :
    projArr f (shapeCast S8192x768 a0 h32) a1 a2 (ix2 (⟨b.val * 1024 + n.val, by have := b.isLt; have := n.isLt; omega⟩ : Fin 8192) c)
      = Attn.lin a0 a1 a2 b n (f c) := by
  show Attn.linRow (shapeCast S8192x768 a0 h32) a1 a2 (⟨b.val * 1024 + n.val, by have := b.isLt; have := n.isLt; omega⟩ : Fin 8192) (f c) = _
  unfold Attn.linRow Attn.lin
  refine congrArg₂ (· + ·) (Finset.sum_congr rfl fun k _ => congrArg₂ (· * ·) ?_ rfl) rfl
  rw [cast_rows_apply]
  refine congrArg a0 (funext fun a => Fin.ext ?_)
  have hb := b.isLt; have hn := n.isLt
  match a with
  | ⟨0, _⟩ => show (b.val * 1024 + n.val) / 1024 = b.val; omega
  | ⟨1, _⟩ => show (b.val * 1024 + n.val) % 1024 = n.val; omega
  | ⟨2, _⟩ => rfl

theorem q_entry (b : Fin 8) (n : Fin 1024) (h : Fin 8) (d : Fin 96) :
    shapeCast S8x1024x768 (qArr (shapeCast S8192x768 a0 h32) a1 a2) h23 (ix3 b n (Attn.col h d)) = Attn.qv a0 a1 a2 b n h d := by
  rw [cast_batch_apply]
  show projArr Attn.qc (shapeCast S8192x768 a0 h32) a1 a2 _ * Attn.scl = Attn.lin a0 a1 a2 b n (Attn.qcol h d) * Attn.scl
  rw [projArr_entry, Attn.qc_col]

theorem k_entry (b : Fin 8) (n : Fin 1024) (h : Fin 8) (d : Fin 96) :
    shapeCast S8x1024x768 (projArr Attn.kc (shapeCast S8192x768 a0 h32) a1 a2) h23 (ix3 b n (Attn.col h d)) = Attn.kv a0 a1 a2 b n h d := by
  rw [cast_batch_apply, projArr_entry, Attn.kc_col]
  rfl

theorem v_entry (b : Fin 8) (n : Fin 1024) (h : Fin 8) (d : Fin 96) :
    shapeCast S8x1024x768 (projArr Attn.vc (shapeCast S8192x768 a0 h32) a1 a2) h23 (ix3 b n (Attn.col h d)) = Attn.vv a0 a1 a2 b n h d := by
  rw [cast_batch_apply, projArr_entry, Attn.vc_col]
  rfl

/-- The chain of the three kernels' array functions through the re-layouts is the attention function. -/
theorem compose_eq :
    shapeCast S8x1024x768
      (linArr (shapeCast S8192x768
        (attArr (shapeCast S8x1024x768 (qArr (shapeCast S8192x768 a0 h32) a1 a2) h23)
          (shapeCast S8x1024x768 (projArr Attn.kc (shapeCast S8192x768 a0 h32) a1 a2) h23)
          (shapeCast S8x1024x768 (projArr Attn.vc (shapeCast S8192x768 a0 h32) a1 a2) h23)) h32) a3 a4) h23
      = Attn.outArr a0 a1 a2 a3 a4 := by
  funext i
  obtain ⟨b, n, j, rfl⟩ : ∃ (b : Fin 8) (n : Fin 1024) (j : Fin 768), i = ix3 b n j := ⟨i 0, i 1, i 2, eq_ix3 i⟩
  have hb := b.isLt; have hn := n.isLt
  rw [cast_batch_apply]
  show Attn.linRow (shapeCast S8192x768 _ h32) a3 a4 (⟨b.val * 1024 + n.val, by omega⟩ : Fin 8192) j = Attn.out a0 a1 a2 a3 a4 b n j
  unfold Attn.linRow Attn.out
  refine congrArg₂ (· + ·) (Finset.sum_congr rfl fun c _ => congrArg₂ (· * ·) ?_ rfl) rfl
  rw [cast_rows_apply]
  have eb : (⟨(b.val * 1024 + n.val) / 1024, by omega⟩ : Fin 8) = b := Fin.ext (by show (b.val * 1024 + n.val) / 1024 = b.val; omega)
  have en : (⟨(b.val * 1024 + n.val) % 1024, Nat.mod_lt _ (by decide)⟩ : Fin 1024) = n := Fin.ext (by show (b.val * 1024 + n.val) % 1024 = n.val; omega)
  show Attn.att _ _ _ (⟨(b.val * 1024 + n.val) / 1024, by omega⟩ : Fin 8) (⟨(b.val * 1024 + n.val) % 1024, Nat.mod_lt _ (by decide)⟩ : Fin 1024) (Attn.hd c) (Attn.ln c) = _
  rw [eb, en]
  exact Attn.att_congr (funext fun n' => funext fun h => funext fun d => q_entry a0 a1 a2 h32 h23 b n' h d)
    (funext fun n' => funext fun h => funext fun d => k_entry a0 a1 a2 h32 h23 b n' h d)
    (funext fun n' => funext fun h => funext fun d => v_entry a0 a1 a2 h32 h23 b n' h d) n (Attn.hd c) (Attn.ln c)

end Cert.KernelIdeal.Hand

end
-- ==== Proof.LibPlainDot.lean ====
/-
  A matrix product with the plain dimension numbers — rows × contraction by contraction × columns, no batch
  axis — into a zero accumulator, read at the ideal values at an entry `(i, j)`: the sum over the contraction
  coordinate `q` of `lhs (i, q) · rhs (q, j)`.  General in the three extents and in the dimension-number record,
  which is only asked to list the axes as the plain product does.
-/
import Idealize.ShloMosaic.Lib.ValueIdx
import Idealize.ShloMosaic.PureOps.Ideal.Laws

noncomputable section

namespace Cert.PlainDot

open Idealize.ShloMosaic Idealize.ShloMosaic.ValueIdx

/-- The entry `(i, j)` of `lhs · rhs` accumulated into zeros is `∑ q, lhs (i, q) · rhs (q, j)`. -/
theorem matmul_zero_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (i : Fin M) (j : Fin N) :
    matmul d prec l r (constant ⟨2, ![M, N]⟩ .f32 0x00000000#32) (ix2 i j) = ∑ q : Fin K, l (ix2 i q) * r (ix2 q j) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  -- the two operand indices at `(i, j)` and a contraction position, coordinate by coordinate
  have l0 : ∀ k, (d.lhsIdx (ix2 i j) k (0 : Fin 2)).val = i.val := fun k => by
    subst hd
    unfold DotDims.lhsIdx
    rw [dif_neg (show ¬ (0 : Fin 2) ∈ ([] : List (Fin 2)) from List.not_mem_nil),
      dif_pos (show (0 : Fin 2) ∈ [(0 : Fin 2)] from List.mem_singleton.mpr rfl)]
    rfl
  have r1 : ∀ k, (d.rhsIdx (ix2 i j) k (1 : Fin 2)).val = j.val := fun k => by
    subst hd
    unfold DotDims.rhsIdx
    rw [dif_neg (show ¬ (1 : Fin 2) ∈ ([] : List (Fin 2)) from List.not_mem_nil),
      dif_pos (show (1 : Fin 2) ∈ [(1 : Fin 2)] from List.mem_singleton.mpr rfl)]
    rfl
  simp only [matmul]
  rw [Ideal.matmul_constant_zero_apply, ← Equiv.sum_comp (contrEquiv1 d K hr hs).symm]
  refine Finset.sum_congr rfl fun q _ => ?_
  have hq := contrEquiv1_symm_val d K hr hs q
  have el : d.lhsIdx (ix2 i j) ((contrEquiv1 d K hr hs).symm q) = ix2 i q := funext fun a => Fin.ext (by
    match a with
    | ⟨0, _⟩ => exact l0 _
    | ⟨1, _⟩ => exact (d.lhsIdx_val_of_single hlc _ _).trans hq)
  have er : d.rhsIdx (ix2 i j) ((contrEquiv1 d K hr hs).symm q) = ix2 q j := funext fun a => Fin.ext (by
    match a with
    | ⟨0, _⟩ => exact (d.rhsIdx_val_of_single hrc _ _).trans hq
    | ⟨1, _⟩ => exact r1 _)
  rw [el, er]

end Cert.PlainDot

end
-- ==== Proof.LinBody.lean ====
/-
  The two linear kernels' bodies, read entry by entry at the ideal values.

  The first body forms acc = x0 · x1 + bias (the bias laid along every row) on a [512, 768] block of rows and
  leaves three column ranges of acc: columns 0…767 multiplied by the scale, columns 768…1535, columns
  1536…2303.  The third body forms x0 · x1 + bias on a [1024, 768] block.  Each entry is the row-by-column
  sum of products plus the bias entry of the column: `linRow` of the specification.
-/
import proofs.«181797_j90005334655017_2_alg».proof.Proof.Gen.KernelIdeal.Frame
import proofs.«181797_j90005334655017_2_alg».proof.Proof.Spec
import proofs.«181797_j90005334655017_2_alg».proof.Proof.LibPlainDot
import Idealize.ShloMosaic.Lib.Pipeline.Value
import Idealize.ShloMosaic.Lib.ValueLayout

noncomputable section

namespace Cert.Attn.K02

open Idealize.ShloMosaic Idealize.ShloMosaic.ValueIdx Cert.KernelIdeal Cert.KernelIdeal.Gen

/-- The offsets of a whole rank-2 block. -/
theorem hz2 : (![0, 0] : Fin 2 → Nat) = fun _ => 0 := funext fun a => by fin_cases a <;> rfl
/-- The offset of a whole rank-1 block. -/
theorem hz1 : (![0] : Fin 1 → Nat) = fun _ => 0 := funext fun a => by fin_cases a <;> rfl

/-- The accumulator of the first body at row `i`, column `j`: the sum of products plus the bias at `j`. -/
theorem pay1_apply (x0 : Vec Ideal S512x768 .f32) (x1 : Vec Ideal S768x2304 .bf16) (x2 : Vec Ideal S2304 .f32)
    (i : Fin 512) (j : Fin 2304) :
    k0_pay1 (F := Ideal) x0 x1 x2 (ix2 i j) = Cert.Attn.linRow x0 x1 x2 i j := by
  unfold k0_pay1 Cert.Attn.linRow
  refine (addf_apply _ _ _).trans ?_
  refine congrArg₂ (· + ·) ?_ ?_
  · refine (Cert.PlainDot.matmul_zero_apply dot_S512x768_S768x2304_S512x2304_1_0_0_1_n_n rfl rfl rfl rfl rfl rfl none _ _ i j).trans ?_
    refine Finset.sum_congr rfl fun c _ => ?_
    rw [shapeCast_self, shapeCast_self]
    rfl
  · refine (broadcastTo_1b_ab_apply _ _ i j).trans ?_
    exact shapeCast_a_1a_apply _ _ 0 j

/-- The first stored block at `(i, j)`: column `j` of the accumulator, multiplied by the scale. -/
theorem pay2_apply (x0 : Vec Ideal S512x768 .f32) (x1 : Vec Ideal S768x2304 .bf16) (x2 : Vec Ideal S2304 .f32)
    (i : Fin 512) (j : Fin 768) :
    k0_pay2 (F := Ideal) x0 x1 x2 (ix2 i j) = Cert.Attn.linRow x0 x1 x2 i (Cert.Attn.qc j) * Cert.Attn.scl := by
  unfold k0_pay2
  refine (truncf_apply (φ := .f32) (ψ := .bf16) _ _ _).trans ?_
  refine (mulf_apply _ _ _).trans ?_
  refine congrArg₂ (· * ·) ?_ ?_
  · refine (slice2_axis1_apply 0 _ _ i j (Cert.Attn.qc j) ?_).trans (pay1_apply x0 x1 x2 i (Cert.Attn.qc j))
    exact (Nat.zero_add _).symm
  · rfl

/-- The second stored block at `(i, j)`: column `768 + j` of the accumulator. -/
theorem pay3_apply (x0 : Vec Ideal S512x768 .f32) (x1 : Vec Ideal S768x2304 .bf16) (x2 : Vec Ideal S2304 .f32)
    (i : Fin 512) (j : Fin 768) :
    k0_pay3 (F := Ideal) x0 x1 x2 (ix2 i j) = Cert.Attn.linRow x0 x1 x2 i (Cert.Attn.kc j) := by
  unfold k0_pay3
  refine (truncf_apply (φ := .f32) (ψ := .bf16) _ _ _).trans ?_
  exact (slice2_axis1_apply 768 _ _ i j (Cert.Attn.kc j) rfl).trans (pay1_apply x0 x1 x2 i (Cert.Attn.kc j))

/-- The third stored block at `(i, j)`: column `1536 + j` of the accumulator. -/
theorem pay4_apply (x0 : Vec Ideal S512x768 .f32) (x1 : Vec Ideal S768x2304 .bf16) (x2 : Vec Ideal S2304 .f32)
    (i : Fin 512) (j : Fin 768) :
    k0_pay4 (F := Ideal) x0 x1 x2 (ix2 i j) = Cert.Attn.linRow x0 x1 x2 i (Cert.Attn.vc j) := by
  unfold k0_pay4
  refine (truncf_apply (φ := .f32) (ψ := .bf16) _ _ _).trans ?_
  exact (slice2_axis1_apply 1536 _ _ i j (Cert.Attn.vc j) rfl).trans (pay1_apply x0 x1 x2 i (Cert.Attn.vc j))

/-- The third body's stored block at `(i, j)`: the sum of products plus the bias at `j`. -/
theorem pay2_1_apply (x0 : Vec Ideal S1024x768 .bf16) (x1 : Vec Ideal S768x768 .bf16) (x2 : Vec Ideal S768 .f32)
    (i : Fin 1024) (j : Fin 768) :
    k2_pay1 (F := Ideal) x0 x1 x2 (ix2 i j) = Cert.Attn.linRow x0 x1 x2 i j := by
  unfold k2_pay1 Cert.Attn.linRow
  refine (addf_apply _ _ _).trans ?_
  refine congrArg₂ (· + ·) ?_ ?_
  · refine (Cert.PlainDot.matmul_zero_apply dot_S1024x768_S768x768_S1024x768_1_0_0_1_n_n rfl rfl rfl rfl rfl rfl none _ _ i j).trans ?_
    refine Finset.sum_congr rfl fun c _ => ?_
    rw [shapeCast_self, shapeCast_self]
  · refine (broadcastTo_1b_ab_apply _ _ i j).trans ?_
    exact shapeCast_a_1a_apply _ _ 0 j

/-! ## The blocks the bodies leave -/

/-- The first output block of the first body: the scaled query columns. -/
theorem out0_3_eq (x0 : Vec Ideal Cert.KernelIdeal.S512x768 .f32) (x1 : Vec Ideal Cert.KernelIdeal.S768x2304 .bf16)
    (x2 : Vec Ideal Cert.KernelIdeal.S2304 .f32) :
    Cert.KernelIdeal.Gen.out0_3 (F := Ideal) x0 x1 x2 = fun y =>
      Cert.Attn.linRow x0 x1 x2 ⟨(y 0).val, (y 0).isLt⟩ (Cert.Attn.qc ⟨(y 1).val, (y 1).isLt⟩) * Cert.Attn.scl := by
  unfold out0_3
  rw [View.canon_unit_zero hz2]
  simp only [View.ld_unit_zero (S := S512x768) hz2, View.ld_unit_zero (S := S768x2304) hz2, View.ld_unit_zero (S := S2304) hz1]
  funext y
  exact (congrArg (k0_pay2 (F := Ideal) x0 x1 x2) (eq_ix2 y)).trans (pay2_apply x0 x1 x2 (y 0) (y 1))

/-- The second output block of the first body: the key columns. -/
theorem out0_4_eq (x0 : Vec Ideal Cert.KernelIdeal.S512x768 .f32) (x1 : Vec Ideal Cert.KernelIdeal.S768x2304 .bf16)
    (x2 : Vec Ideal Cert.KernelIdeal.S2304 .f32) :
    Cert.KernelIdeal.Gen.out0_4 (F := Ideal) x0 x1 x2 = fun y =>
      Cert.Attn.linRow x0 x1 x2 ⟨(y 0).val, (y 0).isLt⟩ (Cert.Attn.kc ⟨(y 1).val, (y 1).isLt⟩) := by
  unfold out0_4
  rw [View.canon_unit_zero hz2]
  simp only [View.ld_unit_zero (S := S512x768) hz2, View.ld_unit_zero (S := S768x2304) hz2, View.ld_unit_zero (S := S2304) hz1]
  funext y
  exact (congrArg (k0_pay3 (F := Ideal) x0 x1 x2) (eq_ix2 y)).trans (pay3_apply x0 x1 x2 (y 0) (y 1))

/-- The third output block of the first body: the value columns. -/
theorem out0_5_eq (x0 : Vec Ideal Cert.KernelIdeal.S512x768 .f32) (x1 : Vec Ideal Cert.KernelIdeal.S768x2304 .bf16)
    (x2 : Vec Ideal Cert.KernelIdeal.S2304 .f32) :
    Cert.KernelIdeal.Gen.out0_5 (F := Ideal) x0 x1 x2 = fun y =>
      Cert.Attn.linRow x0 x1 x2 ⟨(y 0).val, (y 0).isLt⟩ (Cert.Attn.vc ⟨(y 1).val, (y 1).isLt⟩) := by
  unfold out0_5
  rw [View.canon_unit_zero hz2]
  simp only [View.ld_unit_zero (S := S512x768) hz2, View.ld_unit_zero (S := S768x2304) hz2, View.ld_unit_zero (S := S2304) hz1]
  funext y
  exact (congrArg (k0_pay4 (F := Ideal) x0 x1 x2) (eq_ix2 y)).trans (pay4_apply x0 x1 x2 (y 0) (y 1))

/-- The output block of the third body. -/
theorem out2_3_eq (x0 : Vec Ideal Cert.KernelIdeal.S1024x768 .bf16) (x1 : Vec Ideal Cert.KernelIdeal.S768x768 .bf16)
    (x2 : Vec Ideal Cert.KernelIdeal.S768 .f32) :
    Cert.KernelIdeal.Gen.out2_3 (F := Ideal) x0 x1 x2 = fun y =>
      Cert.Attn.linRow x0 x1 x2 ⟨(y 0).val, (y 0).isLt⟩ ⟨(y 1).val, (y 1).isLt⟩ := by
  unfold out2_3
  rw [View.canon_unit_zero hz2]
  simp only [View.ld_unit_zero (S := S1024x768) hz2, View.ld_unit_zero (S := S768x768) hz2, View.ld_unit_zero (S := S768) hz1]
  funext y
  exact (congrArg (k2_pay1 (F := Ideal) x0 x1 x2) (eq_ix2 y)).trans (pay2_1_apply x0 x1 x2 (y 0) (y 1))

end Cert.Attn.K02

end
-- ==== Proof.LibRowOps.lean ====
/-
  Row-wise vector operations read at an index, at the ideal values: general lemmas, stated over arbitrary
  extents, for kernels that reduce along the last axis and broadcast the result back (a mean, a softmax).

  * the keepdims layout forms: a vector [a] viewed as a column [a, 1]; a column [a, 1] broadcast along the rows
    to [a, b]; a matrix [a, b] viewed as [a, b, 1]; and [a, b, 1] broadcast along the last axis to [a, b, c];
  * a sum and a maximum along the last axis of a matrix, and a sum along the last axis of a rank-3 array, as a
    `Fin`-indexed sum (fold) over that axis's coordinate;
  * the host's maximum-reduce along the last axis of a matrix, as the same fold;
  * a matrix product with the plain dimension numbers (rows × contraction by contraction × columns) into a
    zero accumulator, as the sum over the contraction coordinate.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {α : Type}

/-! ## The keepdims layout forms -/

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix `[a, b]` cast to `[a, b, 1]` reads, at `(i, j, u)`, the operand at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b, 1]` broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Reductions along the last axis -/

/-- A reduced row index `i` of a matrix with column `k` put back is `(i, k)`. -/
theorem lift_last2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A reduced index `(i, j)` of a rank-3 array with the last coordinate `k` put back is `(i, j, k)`. -/
theorem lift_last3 {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- The sum along the rows of a matrix, at row `i`: the sum over the columns of the entries of that row. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last2 h i k))

/-- The sum along the last axis of a rank-3 array, at `(i, j)`. -/
theorem lastSum3_apply {a b c : ℕ} {φ : FTy} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last3 h i j k))

/-- The maximum along the rows of a matrix, at row `i`: the fold of `max` from the accumulator's value over the
    entries of that row. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_last2 h i k)))

/-- The host's maximum-reduce along the rows of a matrix, at row `i`: the same fold, from the initial value. -/
theorem hostRowMax_apply {a b : ℕ} {φ : FTy} {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (i : Fin a) :
    Host.reduce FloatOps.maximumf x init h' hu (ix1 i)
      = (Finset.univ : Finset (Fin b)).fold max (init (Shape.Idx.first hu)) (fun k => x (ix2 i k)) :=
  (Host.reduce_eq_fold_single FloatOps.maximumf x init h' h hu (ix1 i)).trans
    (congrArg (fun f => Finset.fold max (init (Shape.Idx.first hu)) f (Finset.univ : Finset (Fin b)))
      (funext fun k => congrArg x (lift_last2 h i k)))

end Cert.RowOps

end
-- ==== Proof.AttnBody.lean ====
/-
  The attention kernel's body, head by head.

  Each of the eight stores of the body writes, into columns 96h … 96h+95 of the output block, one and the same
  function `headFn` of the three [1, 1024, 96] slices (query, key, value) loaded at those columns: the scores
  q · kᵀ, each row's maximum folded from −∞, the exponentials of the scores less the maximum, their row sum, the
  quotient, and the product with the values.  Read at an entry this is the attended value of the specification
  for one head, and the eight pieces laid side by side are the specification's block function.
-/
import proofs.«181797_j90005334655017_2_alg».proof.Proof.Gen.KernelIdeal.Frame
import proofs.«181797_j90005334655017_2_alg».proof.Proof.Spec
import proofs.«181797_j90005334655017_2_alg».proof.Proof.LibRowOps
import proofs.«181797_j90005334655017_2_alg».proof.Proof.LibPlainDot
import Idealize.ShloMosaic.Lib.Pipeline.Value
import Idealize.ShloMosaic.Lib.ValueLayout

noncomputable section

namespace Cert.Attn.K1

open Idealize.ShloMosaic Idealize.ShloMosaic.ValueIdx Idealize.SL.Sem
open Cert.KernelIdeal Cert.KernelIdeal.Gen

/-! ## One head's payload as one function of its three loaded slices -/

/-- What the body computes for one head from the loaded query, key and value slices. -/
def headFn (v0 v2 v4 : Vec Ideal S1x1024x96 .bf16) : FVec Ideal S1x1024x96 .bf16 :=
  have v1 : FVec Ideal S1024x96 .bf16 := shapeCast S1024x96 v0 shapeCasts_S1x1024x96_S1024x96
  have v3 : FVec Ideal S1024x96 .bf16 := shapeCast S1024x96 v2 shapeCasts_S1x1024x96_S1024x96
  have v5 : FVec Ideal S1024x96 .bf16 := shapeCast S1024x96 v4 shapeCasts_S1x1024x96_S1024x96
  have cst : FVec Ideal S1024x1024 .f32 := constant S1024x1024 .f32 0x00000000#32
  have v6 : FVec Ideal S1024x1024 .f32 := matmul dot_S1024x96_S1024x96_S1024x1024_1_1_0_0_n_n none v1 v3 cst
  have v7 : FVec Ideal S1024 .f32 := multiReduction .maximumf [1] S1024 v6 0xFF800000#32 reduces_S1024x1024_S1024 (.inl rfl) rfl
  have v8 : FVec Ideal S1024x1 .f32 := shapeCast S1024x1 v7 shapeCasts_S1024_S1024x1
  have v9 : FVec Ideal S1024x1024 .f32 := broadcastTo S1024x1024 v8 broadcasts_S1024x1_S1024x1024
  have v10 : FVec Ideal S1024x1024 .f32 := subf v6 v9
  have v11 : FVec Ideal S1024x1024 .f32 := exp v10
  have v12 : FVec Ideal S1024 .f32 := multiReduction .add [1] S1024 v11 0x00000000#32 reduces_S1024x1024_S1024 (.inl rfl) rfl
  have v13 : FVec Ideal S1024x1 .f32 := shapeCast S1024x1 v12 shapeCasts_S1024_S1024x1
  have v14 : FVec Ideal S1024x1024 .f32 := broadcastTo S1024x1024 v13 broadcasts_S1024x1_S1024x1024
  have v15 : FVec Ideal S1024x1024 .f32 := divf v11 v14
  have v16 : FVec Ideal S1024x1024 .bf16 := truncf .bf16 v15 bitsLt_bf16_f32
  have cst_10 : FVec Ideal S1024x96 .f32 := constant S1024x96 .f32 0x00000000#32
  have v17 : FVec Ideal S1024x96 .f32 := matmul dot_S1024x1024_S1024x96_S1024x96_1_0_0_1_n_n none v16 v5 cst_10
  have v18 : FVec Ideal S1024x96 .bf16 := truncf .bf16 v17 bitsLt_bf16_f32
  have v21 : FVec Ideal S1x1024x96 .bf16 := shapeCast S1x1024x96 v18 shapeCasts_S1024x96_S1x1024x96
  v21

theorem head0 (q k v : Vec Ideal S1x1024x96 .bf16) : k1_pay2 (F := Ideal) q k v = headFn q k v := rfl
theorem head1 (q k v : Vec Ideal S1x1024x96 .bf16) :
    k1_pay6 (F := Ideal) (k1_pay3 v) (k1_pay4 q k) (k1_pay5 q k) = headFn q k v := rfl
theorem head2 (q k v : Vec Ideal S1x1024x96 .bf16) : k1_pay7 (F := Ideal) q k v = headFn q k v := rfl
theorem head3 (q k v : Vec Ideal S1x1024x96 .bf16) : k1_pay8 (F := Ideal) q k v = headFn q k v := rfl
theorem head4 (q k v : Vec Ideal S1x1024x96 .bf16) :
    k1_pay11 (F := Ideal) (k1_pay9 v) (k1_pay10 q k) = headFn q k v := rfl
theorem head5 (q k v : Vec Ideal S1x1024x96 .bf16) : k1_pay12 (F := Ideal) q k v = headFn q k v := rfl
theorem head6 (q k v : Vec Ideal S1x1024x96 .bf16) :
    k1_pay14 (F := Ideal) (k1_pay13 q) k v = headFn q k v := rfl
theorem head7 (q k v : Vec Ideal S1x1024x96 .bf16) :
    k1_pay1 (F := Ideal) (k1_pay15 v) (k1_pay16 q k) (k1_pay17 q k) = headFn q k v := rfl

/-! ## The score product read at an entry

The scores contract the LAST axis of both operands (queries by keys, both [1024, 96]): entry (i, j) is the sum
over the lane q of lhs (i, q) · rhs (j, q). -/

/-- The entry `(i, j)` of `lhs · rhsᵀ` accumulated into zeros is `∑ q, lhs (i, q) · rhs (j, q)`. -/
theorem matmul_nt_zero_apply {M K N : ℕ} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (l : FVec Ideal ⟨2, ![M, K]⟩ φ₁) (r : FVec Ideal ⟨2, ![N, K]⟩ φ₂) (i : Fin M) (j : Fin N) :
    matmul d prec l r (constant ⟨2, ![M, N]⟩ .f32 0x00000000#32) (ix2 i j) = ∑ q : Fin K, l (ix2 i q) * r (ix2 j q) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  -- the two operand indices at `(i, j)` and a contraction position, coordinate by coordinate
  have l0 : ∀ k, (d.lhsIdx (ix2 i j) k (0 : Fin 2)).val = i.val := fun k => by
    subst hd
    unfold DotDims.lhsIdx
    rw [dif_neg (show ¬ (0 : Fin 2) ∈ ([] : List (Fin 2)) from List.not_mem_nil),
      dif_pos (show (0 : Fin 2) ∈ [(0 : Fin 2)] from List.mem_singleton.mpr rfl)]
    rfl
  have r0 : ∀ k, (d.rhsIdx (ix2 i j) k (0 : Fin 2)).val = j.val := fun k => by
    subst hd
    unfold DotDims.rhsIdx
    rw [dif_neg (show ¬ (0 : Fin 2) ∈ ([] : List (Fin 2)) from List.not_mem_nil),
      dif_pos (show (0 : Fin 2) ∈ [(0 : Fin 2)] from List.mem_singleton.mpr rfl)]
    rfl
  simp only [matmul]
  rw [Ideal.matmul_constant_zero_apply, ← Equiv.sum_comp (contrEquiv1 d K hr hs).symm]
  refine Finset.sum_congr rfl fun q _ => ?_
  have hq := contrEquiv1_symm_val d K hr hs q
  have el : d.lhsIdx (ix2 i j) ((contrEquiv1 d K hr hs).symm q) = ix2 i q := funext fun a => Fin.ext (by
    match a with
    | ⟨0, _⟩ => exact l0 _
    | ⟨1, _⟩ => exact (d.lhsIdx_val_of_single hlc _ _).trans hq)
  have er : d.rhsIdx (ix2 i j) ((contrEquiv1 d K hr hs).symm q) = ix2 j q := funext fun a => Fin.ext (by
    match a with
    | ⟨0, _⟩ => exact r0 _
    | ⟨1, _⟩ => exact (d.rhsIdx_val_of_single hrc _ _).trans hq)
  rw [el, er]

/-! ## The stages of one head, each read at an entry -/

/-- The scores of the loaded query slice against the loaded key slice. -/
def scoreV (q k : Vec Ideal S1x1024x96 .bf16) : FVec Ideal S1024x1024 .f32 :=
  matmul dot_S1024x96_S1024x96_S1024x1024_1_1_0_0_n_n none
    (shapeCast S1024x96 q shapeCasts_S1x1024x96_S1024x96 : FVec Ideal S1024x96 .bf16)
    (shapeCast S1024x96 k shapeCasts_S1x1024x96_S1024x96 : FVec Ideal S1024x96 .bf16) (constant S1024x1024 .f32 0x00000000#32)

theorem scoreV_apply (q k : Vec Ideal S1x1024x96 .bf16) (n m : Fin 1024) :
    scoreV q k (ix2 n m) = ∑ e : Fin 96, q (ix3 (0 : Fin 1) n e) * k (ix3 (0 : Fin 1) m e) := by
  unfold scoreV
  refine (matmul_nt_zero_apply dot_S1024x96_S1024x96_S1024x1024_1_1_0_0_n_n rfl rfl rfl rfl rfl rfl none _ _ n m).trans ?_
  exact Finset.sum_congr rfl fun e _ =>
    congrArg₂ (· * ·) (shapeCast_1ab_ab_apply q _ n e) (shapeCast_1ab_ab_apply k _ m e)

/-- Each row's maximum, folded from −∞, laid along the row again. -/
def rowMaxV (s : FVec Ideal S1024x1024 .f32) : FVec Ideal S1024x1024 .f32 :=
  broadcastTo S1024x1024 (shapeCast S1024x1 (multiReduction .maximumf [1] S1024 s 0xFF800000#32 reduces_S1024x1024_S1024 (.inl rfl) rfl)
    shapeCasts_S1024_S1024x1) broadcasts_S1024x1_S1024x1024

theorem rowMaxV_apply (s : FVec Ideal S1024x1024 .f32) (n k : Fin 1024) :
    rowMaxV s (ix2 n k) = (Finset.univ : Finset (Fin 1024)).fold max ninf (fun k' => s (ix2 n k')) := by
  unfold rowMaxV
  refine (Cert.RowOps.broadcastTo_a1_ab_apply _ _ n k).trans ?_
  refine (Cert.RowOps.shapeCast_a_a1_apply _ _ n (0 : Fin 1)).trans ?_
  exact Cert.RowOps.rowMax_apply s _ _ _ _ n

/-- Each row's sum laid along the row again. -/
def rowSumV (e : FVec Ideal S1024x1024 .f32) : FVec Ideal S1024x1024 .f32 :=
  broadcastTo S1024x1024 (shapeCast S1024x1 (multiReduction .add [1] S1024 e 0x00000000#32 reduces_S1024x1024_S1024 (.inl rfl) rfl)
    shapeCasts_S1024_S1024x1) broadcasts_S1024x1_S1024x1024

theorem rowSumV_apply (e : FVec Ideal S1024x1024 .f32) (n k : Fin 1024) :
    rowSumV e (ix2 n k) = ∑ k' : Fin 1024, e (ix2 n k') := by
  unfold rowSumV
  refine (Cert.RowOps.broadcastTo_a1_ab_apply _ _ n k).trans ?_
  refine (Cert.RowOps.shapeCast_a_a1_apply _ _ n (0 : Fin 1)).trans ?_
  exact Cert.RowOps.rowSum_apply e _ _ _ _ n

/-- The exponentials of the scores less their row's maximum. -/
def expV (s : FVec Ideal S1024x1024 .f32) : FVec Ideal S1024x1024 .f32 := exp (subf s (rowMaxV s))

theorem expV_apply (s : FVec Ideal S1024x1024 .f32) (n k : Fin 1024) :
    expV s (ix2 n k) = Ideal.exp (s (ix2 n k) - (Finset.univ : Finset (Fin 1024)).fold max ninf (fun k' => s (ix2 n k'))) := by
  show Ideal.exp (s (ix2 n k) - rowMaxV s (ix2 n k)) = _
  rw [rowMaxV_apply]

/-- The softmax weights. -/
def probV (s : FVec Ideal S1024x1024 .f32) : FVec Ideal S1024x1024 .bf16 :=
  truncf .bf16 (divf (expV s) (rowSumV (expV s))) bitsLt_bf16_f32

theorem probV_apply (s : FVec Ideal S1024x1024 .f32) (n k : Fin 1024) :
    probV s (ix2 n k) = Ideal.div (expV s (ix2 n k)) (∑ k' : Fin 1024, expV s (ix2 n k')) := by
  show Ideal.div (expV s (ix2 n k)) (rowSumV (expV s) (ix2 n k)) = _
  rw [rowSumV_apply]

/-- The weights times the values, stored as a [1, 1024, 96] piece. -/
def tailFn (s : FVec Ideal S1024x1024 .f32) (V : FVec Ideal S1024x96 .bf16) : FVec Ideal S1x1024x96 .bf16 :=
  shapeCast S1x1024x96 (truncf .bf16 (matmul dot_S1024x1024_S1024x96_S1024x96_1_0_0_1_n_n none (probV s) V
    (constant S1024x96 .f32 0x00000000#32)) bitsLt_bf16_f32) shapeCasts_S1024x96_S1x1024x96

theorem tailFn_apply (s : FVec Ideal S1024x1024 .f32) (V : FVec Ideal S1024x96 .bf16) (u : Fin 1) (n : Fin 1024) (d : Fin 96) :
    tailFn s V (ix3 u n d) = ∑ k : Fin 1024, probV s (ix2 n k) * V (ix2 k d) := by
  unfold tailFn
  refine (shapeCast_ab_1ab_apply _ _ u n d).trans ?_
  refine (truncf_apply (ψ := .bf16) _ bitsLt_bf16_f32 _).trans ?_
  exact Cert.PlainDot.matmul_zero_apply dot_S1024x1024_S1024x96_S1024x96_1_0_0_1_n_n rfl rfl rfl rfl rfl rfl none (probV s) V n d

theorem headFn_eq (q k v : Vec Ideal S1x1024x96 .bf16) :
    headFn q k v = tailFn (scoreV q k) (shapeCast S1024x96 v shapeCasts_S1x1024x96_S1024x96 : FVec Ideal S1024x96 .bf16) := rfl

/-! ## One head as the specification's attention -/

section one
variable (qf kf vf : Fin 1024 → Fin 96 → EReal)

/-- One head's score, row maximum, exponential and attended value from its own queries, keys and values. -/
def sOne (n m : Fin 1024) : EReal := ∑ e : Fin 96, qf n e * kf m e
def mOne (n : Fin 1024) : EReal := (Finset.univ : Finset (Fin 1024)).fold max ninf (fun m => sOne qf kf n m)
def eOne (n m : Fin 1024) : EReal := Ideal.exp (sOne qf kf n m - mOne qf kf n)
def attOne (n : Fin 1024) (d : Fin 96) : EReal :=
  ∑ m : Fin 1024, Ideal.div (eOne qf kf n m) (∑ m' : Fin 1024, eOne qf kf n m') * vf m d

end one

/-- The specification's attention at a batch and head only reads that batch's and head's queries, keys, values. -/
theorem att_eq_attOne (qf kf vf : Fin 8 → Fin 1024 → Fin 8 → Fin 96 → EReal) (b h : Fin 8) (n : Fin 1024) (d : Fin 96) :
    att qf kf vf b n h d = attOne (fun n e => qf b n h e) (fun n e => kf b n h e) (fun n e => vf b n h e) n d := rfl

theorem headFn_apply (q k v : Vec Ideal S1x1024x96 .bf16) (u : Fin 1) (n : Fin 1024) (d : Fin 96) :
    headFn q k v (ix3 u n d) = attOne (fun n e => q (ix3 (0 : Fin 1) n e)) (fun n e => k (ix3 (0 : Fin 1) n e))
      (fun n e => v (ix3 (0 : Fin 1) n e)) n d := by
  have hs : ∀ m : Fin 1024, scoreV q k (ix2 n m)
      = sOne (fun n e => q (ix3 (0 : Fin 1) n e)) (fun n e => k (ix3 (0 : Fin 1) n e)) n m := fun m => scoreV_apply q k n m
  have hM : (Finset.univ : Finset (Fin 1024)).fold max ninf (fun k' => scoreV q k (ix2 n k'))
      = mOne (fun n e => q (ix3 (0 : Fin 1) n e)) (fun n e => k (ix3 (0 : Fin 1) n e)) n :=
    congrArg (fun f => Finset.fold max ninf f (Finset.univ : Finset (Fin 1024))) (funext hs)
  have he : ∀ m : Fin 1024, expV (scoreV q k) (ix2 n m)
      = eOne (fun n e => q (ix3 (0 : Fin 1) n e)) (fun n e => k (ix3 (0 : Fin 1) n e)) n m := fun m => by
    rw [expV_apply, hs m, hM]; rfl
  rw [headFn_eq]
  refine (tailFn_apply _ _ u n d).trans ?_
  unfold attOne
  refine Finset.sum_congr rfl fun m _ => ?_
  rw [probV_apply, he m, Finset.sum_congr rfl fun k' _ => he k']
  exact congrArg _ (shapeCast_1ab_ab_apply v _ m d)

/-! ## A loaded slice and a stored piece in the block's coordinates -/

/-- The rectangle of head `h` takes all rows and the columns `96 h … 96 h + 95`: its entry `(u, n, d)` sits at
    `(0, n, 96 h + d)` of the block. -/
theorem rect_idx (h : Fin 8) (o : ℕ) (ho : o = h.val * 96)
    (inb : ∀ a, (![0, 0, o] : Fin 3 → ℕ) a + S1x1024x96.size a ≤ S1x1024x768.size a) (u : Fin 1) (n : Fin 1024) (d : Fin 96) :
    (Rect.unit (s := S1x1024x768) ![0, 0, o] S1x1024x96.size inb).idx (ix3 u n d) = ix3 (0 : Fin 1) n (col h d) := by
  subst ho
  funext a
  apply Fin.ext
  match a with
  | ⟨0, _⟩ => show 0 + 1 * u.val = 0; omega
  | ⟨1, _⟩ => show 0 + 1 * n.val = n.val; omega
  | ⟨2, _⟩ => show h.val * 96 + 1 * d.val = h.val * 96 + d.val; omega

/-- The specification's block function at `(0, n, c)`. -/
theorem attBlk_apply (q k v : (⟨3, ![1, 1024, 768]⟩ : Shape).Idx → EReal) (n : Fin 1024) (c : Fin 768) :
    attBlk q k v (ix3 (0 : Fin 1) n c)
      = att (fun _ n h d => q (ix3 (0 : Fin 1) n (col h d))) (fun _ n h d => k (ix3 (0 : Fin 1) n (col h d)))
          (fun _ n h d => v (ix3 (0 : Fin 1) n (col h d))) 0 n (hd c) (ln c) := rfl

/-- Head `h`'s function of the slices loaded at its rectangle is the block function read through the rectangle. -/
theorem piece (x0 x1 x2 : Vec Ideal S1x1024x768 .bf16) (h : Fin 8) (o : ℕ) (ho : o = h.val * 96)
    (inb : ∀ a, (![0, 0, o] : Fin 3 → ℕ) a + S1x1024x96.size a ≤ S1x1024x768.size a)
    (x : (Rect.unit (s := S1x1024x768) ![0, 0, o] S1x1024x96.size inb).shape.Idx) :
    headFn (View.ld x0 (Rect.unit (s := S1x1024x768) ![0, 0, o] S1x1024x96.size inb))
        (View.ld x1 (Rect.unit (s := S1x1024x768) ![0, 0, o] S1x1024x96.size inb))
        (View.ld x2 (Rect.unit (s := S1x1024x768) ![0, 0, o] S1x1024x96.size inb)) x
      = attBlk x0 x1 x2 ((Rect.unit (s := S1x1024x768) ![0, 0, o] S1x1024x96.size inb).emb x) := by
  obtain ⟨u, n, d, rfl⟩ : ∃ (u : Fin 1) (n : Fin 1024) (d : Fin 96), x = ix3 u n d := ⟨x 0, x 1, x 2, eq_ix3 x⟩
  refine (headFn_apply _ _ _ u n d).trans ?_
  have hy : (Rect.unit (s := S1x1024x768) ![0, 0, o] S1x1024x96.size inb).emb (ix3 u n d) = ix3 (0 : Fin 1) n (col h d) :=
    rect_idx h o ho inb u n d
  have hl : ∀ (X : Vec Ideal S1x1024x768 .bf16) (n : Fin 1024) (e : Fin 96),
      View.ld X (Rect.unit (s := S1x1024x768) ![0, 0, o] S1x1024x96.size inb) (ix3 (0 : Fin 1) n e) = X (ix3 (0 : Fin 1) n (col h e)) :=
    fun X n e => congrArg X (rect_idx h o ho inb 0 n e)
  have key : ∀ A A' B B' C C' : Fin 1024 → Fin 96 → EReal, A = A' → B = B' → C = C' → attOne A B C n d = attOne A' B' C' n d := by
    intro A A' B B' C C' hA hB hC; subst hA hB hC; rfl
  rw [hy, attBlk_apply, hd_col, ln_col, att_eq_attOne]
  exact key _ _ _ _ _ _ (funext fun n => funext fun e => hl x0 n e) (funext fun n => funext fun e => hl x1 n e)
    (funext fun n => funext fun e => hl x2 n e)

/-! ## The eight pieces are the blocks of the specification's function -/

theorem out1_eq (x0 x1 x2 : Vec Ideal S1x1024x768 .bf16) :
    out1_3 (F := Ideal) x0 x1 x2 = attBlk x0 x1 x2 := by
  funext y
  unfold out1_3
  refine View.canon_apply_of_pieces (Val := Elt Ideal) (S := S1x1024x768) (e := .bf16) (attBlk x0 x1 x2) _ ?_ y (cover1_3 _ _ _ _ _ _ _ _ y)
  intro p hp
  simp only [List.mem_cons, List.not_mem_nil, or_false] at hp
  rcases hp with rfl | rfl | rfl | rfl | rfl | rfl | rfl | rfl
  · exact fun x => (congrFun (head7 _ _ _) x).trans (piece x0 x1 x2 7 672 rfl _ x)
  · exact fun x => (congrFun (head6 _ _ _) x).trans (piece x0 x1 x2 6 576 rfl _ x)
  · exact fun x => (congrFun (head5 _ _ _) x).trans (piece x0 x1 x2 5 480 rfl _ x)
  · exact fun x => (congrFun (head4 _ _ _) x).trans (piece x0 x1 x2 4 384 rfl _ x)
  · exact fun x => (congrFun (head3 _ _ _) x).trans (piece x0 x1 x2 3 288 rfl _ x)
  · exact fun x => (congrFun (head2 _ _ _) x).trans (piece x0 x1 x2 2 192 rfl _ x)
  · exact fun x => (congrFun (head1 _ _ _) x).trans (piece x0 x1 x2 1 96 rfl _ x)
  · exact fun x => (congrFun (head0 _ _ _) x).trans (piece x0 x1 x2 0 0 rfl _ x)

end Cert.Attn.K1

end
-- ==== Proof.KernelValue.lean ====
/-
  The idealized kernel program's result is the attention function of its five arguments.

  The program's result buffer holds, after the run, the last re-layout of what the output linear kernel left;
  that kernel's operands are the re-layout of what the attention kernel left, the second weight matrix and
  bias; the attention kernel's operands are the re-layouts of what the fused linear kernel left; and that
  kernel's operands are the re-layout of the input, the first weight matrix and bias.  Each kernel's array is
  one function of its operand arrays (the pipeline's blocks fill it, and each body computes that function on
  its block), and the chain of the three functions through the re-layouts is the attention function.
-/
import proofs.«181797_j90005334655017_2_alg».proof.Proof.KRun
import proofs.«181797_j90005334655017_2_alg».proof.Proof.Boundaries
import proofs.«181797_j90005334655017_2_alg».proof.Proof.Compose
import proofs.«181797_j90005334655017_2_alg».proof.Proof.LinBody
import proofs.«181797_j90005334655017_2_alg».proof.Proof.AttnBody

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- What the result buffer holds after the last segment. -/
theorem result_eq (c : Dev nD) :
    (W7 m ρ c (Proc.devRef .tc main_v10) : S8x1024x768.Idx → Elt Ideal .f32)
      = Attn.outArr (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [W7_v10, final2 (V5 m ρ) Attn.K02.out2_3_eq c, V5_v8, V5_v2, V5_arg4, final1 (V3 m ρ) Attn.K1.out1_eq c, V3_v4, V3_v5, V3_v6,
    final0_3 (V1 m ρ) Attn.K02.out0_3_eq c, final0_4 (V1 m ρ) Attn.K02.out0_4_eq c, final0_5 (V1 m ρ) Attn.K02.out0_5_eq c,
    V1_v0, V1_v1, V1_arg2]
  exact compose_eq _ _ _ _ _ _ _

/-- The run, read: the result buffer at the attention function of the arguments, the arguments unchanged. -/
theorem run : θ_run defs (onTc (τ := τ) (main (F := Ideal))) ⟨m, fun _ => 0, ρ⟩ (fun r => ∀ c : Dev nD,
      r.2.mem ((c.tc : Thread nD τ).loc main_v10)
        = Attn.outArr (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (run_val m ρ)

end Cert.KernelIdeal.Hand

end
-- ==== Proof.RefValue.lean ====
/-
  The reference program computes the attention function of the specification.

  The program's operations are read one at a time at explicit coordinates (batch `b`, head `h`, positions `n`, `k`,
  lane `d`, column `j`): the fused linear map; the reshape to [8, 1024, 3, 8, 96], transpose and three slices, which
  pick the query, key and value columns `h·96 + d`, `768 + h·96 + d`, `1536 + h·96 + d`; the scores as sums over the
  lanes; the softmax as maximum, subtraction, exponential, sum and quotient; the weighted sum of the values; the
  heads laid side by side again (column `c` is head `c / 96`, lane `c % 96`); and the second linear map.
-/
import proofs.«181797_j90005334655017_2_alg».proof.Proof.Spec
import proofs.«181797_j90005334655017_2_alg».proof.Proof.LibRowOps
import proofs.«181797_j90005334655017_2_alg».proof.Proof.Gen.ReferenceIdeal.Read

noncomputable section

namespace Cert.Attn.Ref

open Idealize.ShloMosaic Idealize.ShloMosaic.ValueIdx Cert.ReferenceIdeal Cert.ReferenceIdeal.Gen Cert.ReferenceIdeal.Read

variable (x0 : (⟨S8x1024x768, .f32⟩ : BufTy).Contents (Elt Ideal)) (x1 : (⟨S768x2304, .f32⟩ : BufTy).Contents (Elt Ideal))
  (x2 : (⟨S2304, .f32⟩ : BufTy).Contents (Elt Ideal)) (x3 : (⟨S768x768, .f32⟩ : BufTy).Contents (Elt Ideal))
  (x4 : (⟨S768, .f32⟩ : BufTy).Contents (Elt Ideal))

/-! ## The fused linear map -/

theorem lidx0 (b : Fin 8) (n : Fin 1024) (j : Fin 2304) (c : Fin 768) :
    lidx_main_v0 (ix3 b n j) c = ix3 b n c :=
  funext fun a => Fin.ext (by match a with | ⟨0, _⟩ => rfl | ⟨1, _⟩ => rfl | ⟨2, _⟩ => rfl)

theorem ridx0 (b : Fin 8) (n : Fin 1024) (j : Fin 2304) (c : Fin 768) :
    ridx_main_v0 (ix3 b n j) c = ix2 c j :=
  funext fun a => Fin.ext (by match a with | ⟨0, _⟩ => rfl | ⟨1, _⟩ => rfl)

theorem bidx (b : Fin 8) (n : Fin 1024) (j : Fin 2304) :
    idx_main_v1 (idx_main_v2 (ix3 b n j)) = ix1 j :=
  funext fun a => Fin.ext (by match a with | ⟨0, _⟩ => rfl)

/-- The first einsum and its bias at `(b, n, j)`. -/
theorem v3_eq (b : Fin 8) (n : Fin 1024) (j : Fin 2304) :
    val_main_v3 (F := Ideal) x0 x1 x2 (ix3 b n j) = Cert.Attn.lin x0 x1 x2 b n j := by
  rw [val_main_v3_apply, val_main_v0_apply, val_main_v2_apply, val_main_v1_apply, bidx]
  unfold Cert.Attn.lin
  rw [Ideal.addf_def]
  refine congrArg (· + x2 (ix1 j)) (Finset.sum_congr rfl fun c _ => ?_)
  rw [lidx0, ridx0]

/-! ## Reshape, transpose and slices: the query, key and value columns -/

/-- Dropping the leading unit axis keeps the four coordinates. -/
theorem i7 (b h : Fin 8) (n : Fin 1024) (d : Fin 96) :
    idx_main_v7 (ix4 b h n d) = ix5 (0 : Fin 1) b h n d :=
  funext fun a => Fin.ext (by
    have hb := b.isLt; have hh := h.isLt; have hn := n.isLt; have hd := d.isLt
    match a with
    | ⟨0, _⟩ => rfl
    | ⟨1, _⟩ => show ((((b.val * 8 + h.val) * 1024 + n.val) * 96 + d.val) / 786432 % 8) = b.val; omega
    | ⟨2, _⟩ => show ((((b.val * 8 + h.val) * 1024 + n.val) * 96 + d.val) / 98304 % 8) = h.val; omega
    | ⟨3, _⟩ => show ((((b.val * 8 + h.val) * 1024 + n.val) * 96 + d.val) / 96 % 1024) = n.val; omega
    | ⟨4, _⟩ => show ((((b.val * 8 + h.val) * 1024 + n.val) * 96 + d.val) % 96) = d.val; omega)

theorem i9 (b h : Fin 8) (n : Fin 1024) (d : Fin 96) :
    idx_main_v9 (ix4 b h n d) = ix5 (0 : Fin 1) b h n d := i7 b h n d

theorem i11 (b h : Fin 8) (n : Fin 1024) (d : Fin 96) :
    idx_main_v11 (ix4 b h n d) = ix5 (0 : Fin 1) b h n d := i7 b h n d

theorem i6 (b h : Fin 8) (n : Fin 1024) (d : Fin 96) :
    idx_main_v6 (ix5 (0 : Fin 1) b h n d) = ix5 (0 : Fin 3) b h n d :=
  funext fun a => Fin.ext (by
    match a with | ⟨0, _⟩ => rfl | ⟨1, _⟩ => rfl | ⟨2, _⟩ => rfl | ⟨3, _⟩ => rfl | ⟨4, _⟩ => rfl)

theorem i8 (b h : Fin 8) (n : Fin 1024) (d : Fin 96) :
    idx_main_v8 (ix5 (0 : Fin 1) b h n d) = ix5 (1 : Fin 3) b h n d :=
  funext fun a => Fin.ext (by
    match a with | ⟨0, _⟩ => rfl | ⟨1, _⟩ => rfl | ⟨2, _⟩ => rfl | ⟨3, _⟩ => rfl | ⟨4, _⟩ => rfl)

theorem i10 (b h : Fin 8) (n : Fin 1024) (d : Fin 96) :
    idx_main_v10 (ix5 (0 : Fin 1) b h n d) = ix5 (2 : Fin 3) b h n d :=
  funext fun a => Fin.ext (by
    match a with | ⟨0, _⟩ => rfl | ⟨1, _⟩ => rfl | ⟨2, _⟩ => rfl | ⟨3, _⟩ => rfl | ⟨4, _⟩ => rfl)

theorem i5 (s : Fin 3) (b h : Fin 8) (n : Fin 1024) (d : Fin 96) :
    idx_main_v5 (ix5 s b h n d) = ix5 b n s h d :=
  funext fun a => Fin.ext (by
    match a with | ⟨0, _⟩ => rfl | ⟨1, _⟩ => rfl | ⟨2, _⟩ => rfl | ⟨3, _⟩ => rfl | ⟨4, _⟩ => rfl)

/-- The flat position of `(b, n, s, h, d)` in [8, 1024, 3, 8, 96] is column `s·768 + h·96 + d` of row `(b, n)`. -/
theorem i4q (b h : Fin 8) (n : Fin 1024) (d : Fin 96) :
    idx_main_v4 (ix5 b n (0 : Fin 3) h d) = ix3 b n (Cert.Attn.qcol h d) :=
  funext fun a => Fin.ext (by
    have hb := b.isLt; have hh := h.isLt; have hn := n.isLt; have hd := d.isLt
    match a with
    | ⟨0, _⟩ => show (((((b.val * 1024 + n.val) * 3 + 0) * 8 + h.val) * 96 + d.val) / 2359296) = b.val; omega
    | ⟨1, _⟩ => show (((((b.val * 1024 + n.val) * 3 + 0) * 8 + h.val) * 96 + d.val) / 2304 % 1024) = n.val; omega
    | ⟨2, _⟩ => show (((((b.val * 1024 + n.val) * 3 + 0) * 8 + h.val) * 96 + d.val) % 2304) = h.val * 96 + d.val; omega)

theorem i4k (b h : Fin 8) (n : Fin 1024) (d : Fin 96) :
    idx_main_v4 (ix5 b n (1 : Fin 3) h d) = ix3 b n (Cert.Attn.kcol h d) :=
  funext fun a => Fin.ext (by
    have hb := b.isLt; have hh := h.isLt; have hn := n.isLt; have hd := d.isLt
    match a with
    | ⟨0, _⟩ => show (((((b.val * 1024 + n.val) * 3 + 1) * 8 + h.val) * 96 + d.val) / 2359296) = b.val; omega
    | ⟨1, _⟩ => show (((((b.val * 1024 + n.val) * 3 + 1) * 8 + h.val) * 96 + d.val) / 2304 % 1024) = n.val; omega
    | ⟨2, _⟩ => show (((((b.val * 1024 + n.val) * 3 + 1) * 8 + h.val) * 96 + d.val) % 2304) = 768 + (h.val * 96 + d.val); omega)

theorem i4v (b h : Fin 8) (n : Fin 1024) (d : Fin 96) :
    idx_main_v4 (ix5 b n (2 : Fin 3) h d) = ix3 b n (Cert.Attn.vcol h d) :=
  funext fun a => Fin.ext (by
    have hb := b.isLt; have hh := h.isLt; have hn := n.isLt; have hd := d.isLt
    match a with
    | ⟨0, _⟩ => show (((((b.val * 1024 + n.val) * 3 + 2) * 8 + h.val) * 96 + d.val) / 2359296) = b.val; omega
    | ⟨1, _⟩ => show (((((b.val * 1024 + n.val) * 3 + 2) * 8 + h.val) * 96 + d.val) / 2304 % 1024) = n.val; omega
    | ⟨2, _⟩ => show (((((b.val * 1024 + n.val) * 3 + 2) * 8 + h.val) * 96 + d.val) % 2304) = 1536 + (h.val * 96 + d.val); omega)

/-- The query slice before scaling. -/
theorem v7_eq (b h : Fin 8) (n : Fin 1024) (d : Fin 96) :
    val_main_v7 (F := Ideal) x0 x1 x2 (ix4 b h n d) = Cert.Attn.lin x0 x1 x2 b n (Cert.Attn.qcol h d) := by
  rw [val_main_v7_apply, i7, val_main_v6_apply, i6, val_main_v5_apply, i5, val_main_v4_apply, i4q, v3_eq]

/-- The key slice. -/
theorem v9_eq (b h : Fin 8) (n : Fin 1024) (d : Fin 96) :
    val_main_v9 (F := Ideal) x0 x1 x2 (ix4 b h n d) = Cert.Attn.kv x0 x1 x2 b n h d := by
  rw [val_main_v9_apply, i9, val_main_v8_apply, i8, val_main_v5_apply, i5, val_main_v4_apply, i4k, v3_eq]
  rfl

/-- The value slice. -/
theorem v11_eq (b h : Fin 8) (n : Fin 1024) (d : Fin 96) :
    val_main_v11 (F := Ideal) x0 x1 x2 (ix4 b h n d) = Cert.Attn.vv x0 x1 x2 b n h d := by
  rw [val_main_v11_apply, i11, val_main_v10_apply, i10, val_main_v5_apply, i5, val_main_v4_apply, i4v, v3_eq]
  rfl

/-- The scaled query. -/
theorem v13_eq (b h : Fin 8) (n : Fin 1024) (d : Fin 96) :
    val_main_v13 (F := Ideal) x0 x1 x2 (ix4 b h n d) = Cert.Attn.qv x0 x1 x2 b n h d := by
  rw [val_main_v13_apply, v7_eq, val_main_v12_apply, val_main_cst_apply, Ideal.mulf_def, Ideal.ofBits_def]
  rfl

/-! ## The scores -/

theorem l14 (b h : Fin 8) (n k : Fin 1024) (d : Fin 96) : lidx_main_v14 (ix4 b h n k) d = ix4 b h n d :=
  funext fun a => Fin.ext (by match a with | ⟨0, _⟩ => rfl | ⟨1, _⟩ => rfl | ⟨2, _⟩ => rfl | ⟨3, _⟩ => rfl)

theorem r14 (b h : Fin 8) (n k : Fin 1024) (d : Fin 96) : ridx_main_v14 (ix4 b h n k) d = ix4 b h k d :=
  funext fun a => Fin.ext (by match a with | ⟨0, _⟩ => rfl | ⟨1, _⟩ => rfl | ⟨2, _⟩ => rfl | ⟨3, _⟩ => rfl)

/-- Query · key over the lanes. -/
theorem v14_eq (b h : Fin 8) (n k : Fin 1024) :
    val_main_v14 (F := Ideal) x0 x1 x2 (ix4 b h n k)
      = Cert.Attn.score (Cert.Attn.qv x0 x1 x2) (Cert.Attn.kv x0 x1 x2) b h n k := by
  rw [val_main_v14_apply]
  unfold Cert.Attn.score
  refine Finset.sum_congr rfl fun d _ => ?_
  rw [l14, r14, v13_eq, v9_eq]

/-! ## The softmax -/

theorem reduces_last4 : S8x8x1024x1024.Reduces [3] S8x8x1024 := by decide

/-- A reduced index `(b, h, n)` of the rank-4 score array with the last coordinate `k` put back is `(b, h, n, k)`. -/
theorem lift_last4 (b h : Fin 8) (n : Fin 1024) (k : Fin (S8x8x1024x1024.size 3)) :
    reduces_last4.lift (ix3 b h n) k = ix4 b h n (⟨k.val, k.isLt⟩ : Fin 1024) := by
  funext c; apply Fin.ext
  fin_cases c <;> rfl

/-- The maximum-reduce along the last axis of a [8, 8, 1024, 1024] array at `(b, h, n)`: the fold of `max` from
    the initial value over the entries of that row. -/
theorem hostLastMax4_apply (y : FVec Ideal S8x8x1024x1024 .f32) (init : S_.Idx → Ideal .f32) (b h : Fin 8) (n : Fin 1024) :
    Host.reduce FloatOps.maximumf y init reducesTo_S8x8x1024x1024_S8x8x1024_d3 h_S_ (ix3 b h n)
      = (Finset.univ : Finset (Fin 1024)).fold max (init (Shape.Idx.first h_S_)) (fun k => y (ix4 b h n k)) :=
  (Host.reduce_eq_fold_single FloatOps.maximumf y init reducesTo_S8x8x1024x1024_S8x8x1024_d3 reduces_last4 h_S_ (ix3 b h n)).trans
    (congrArg (fun f => Finset.fold max (init (Shape.Idx.first h_S_)) f (Finset.univ : Finset (Fin 1024)))
      (funext fun k => congrArg y (lift_last4 b h n k)))

/-- The row maximum: the reduce, then the maximum with −∞ again. -/
theorem v17_eq (b h : Fin 8) (n : Fin 1024) :
    val_main_v17 (F := Ideal) x0 x1 x2 (ix3 b h n)
      = Cert.Attn.rowMax (Cert.Attn.qv x0 x1 x2) (Cert.Attn.kv x0 x1 x2) b h n := by
  have e : (fun k : Fin 1024 => val_main_v14 (F := Ideal) x0 x1 x2 (ix4 b h n k))
      = fun k => Cert.Attn.score (Cert.Attn.qv x0 x1 x2) (Cert.Attn.kv x0 x1 x2) b h n k :=
    funext fun k => v14_eq x0 x1 x2 b h n k
  rw [val_main_v17_apply, val_main_v16_apply, val_main_cst_1_apply]
  unfold val_main_v15
  rw [hostLastMax4_apply, e, val_main_cst_0_apply, Ideal.maximumf_def, Ideal.ofBits_def]
  exact max_eq_right ((Finset.le_fold_max _).mpr (Or.inl le_rfl))

theorem i1819 (b h : Fin 8) (n k : Fin 1024) : idx_main_v18 (idx_main_v19 (ix4 b h n k)) = ix3 b h n :=
  funext fun a => Fin.ext (by match a with | ⟨0, _⟩ => rfl | ⟨1, _⟩ => rfl | ⟨2, _⟩ => rfl)

/-- The exponential of a score less its row's maximum. -/
theorem v21_eq (b h : Fin 8) (n k : Fin 1024) :
    val_main_v21 (F := Ideal) x0 x1 x2 (ix4 b h n k)
      = Cert.Attn.expo (Cert.Attn.qv x0 x1 x2) (Cert.Attn.kv x0 x1 x2) b h n k := by
  rw [val_main_v21_apply, val_main_v20_apply, val_main_v19_apply, val_main_v18_apply, i1819, v17_eq, v14_eq,
    Ideal.subf_def, Ideal.hostUnary_exp_def]
  rfl

theorem i22 (b h : Fin 8) (n k : Fin 1024) : idx_main_v22 (ix3 b h n) k = ix4 b h n k :=
  funext fun a => Fin.ext (by match a with | ⟨0, _⟩ => rfl | ⟨1, _⟩ => rfl | ⟨2, _⟩ => rfl | ⟨3, _⟩ => rfl)

/-- The sum of a row's exponentials, from zero. -/
theorem v22_eq (b h : Fin 8) (n : Fin 1024) :
    val_main_v22 (F := Ideal) x0 x1 x2 (ix3 b h n)
      = Cert.Attn.denom (Cert.Attn.qv x0 x1 x2) (Cert.Attn.kv x0 x1 x2) b h n := by
  rw [val_main_v22_apply, val_main_cst_2_apply, Ideal.ofBits_def, Ideal.ofBits_zero_f32, zero_add]
  unfold Cert.Attn.denom
  refine Finset.sum_congr rfl fun k _ => ?_
  rw [i22, v21_eq]

theorem i2324 (b h : Fin 8) (n k : Fin 1024) : idx_main_v23 (idx_main_v24 (ix4 b h n k)) = ix3 b h n :=
  funext fun a => Fin.ext (by match a with | ⟨0, _⟩ => rfl | ⟨1, _⟩ => rfl | ⟨2, _⟩ => rfl)

/-- The softmax weight. -/
theorem v25_eq (b h : Fin 8) (n k : Fin 1024) :
    val_main_v25 (F := Ideal) x0 x1 x2 (ix4 b h n k)
      = Cert.Attn.prob (Cert.Attn.qv x0 x1 x2) (Cert.Attn.kv x0 x1 x2) b h n k := by
  rw [val_main_v25_apply, val_main_v24_apply, val_main_v23_apply, i2324, v22_eq, v21_eq, Ideal.hostDivf_def]
  rfl

/-! ## The weighted sum of the values, and the heads side by side -/

theorem l26 (b h : Fin 8) (n k : Fin 1024) (d : Fin 96) : lidx_main_v26 (ix4 b h n d) k = ix4 b h n k :=
  funext fun a => Fin.ext (by match a with | ⟨0, _⟩ => rfl | ⟨1, _⟩ => rfl | ⟨2, _⟩ => rfl | ⟨3, _⟩ => rfl)

theorem r26 (b h : Fin 8) (n k : Fin 1024) (d : Fin 96) : ridx_main_v26 (ix4 b h n d) k = ix4 b h k d :=
  funext fun a => Fin.ext (by match a with | ⟨0, _⟩ => rfl | ⟨1, _⟩ => rfl | ⟨2, _⟩ => rfl | ⟨3, _⟩ => rfl)

/-- The attended value. -/
theorem v26_eq (b h : Fin 8) (n : Fin 1024) (d : Fin 96) :
    val_main_v26 (F := Ideal) x0 x1 x2 (ix4 b h n d)
      = Cert.Attn.att (Cert.Attn.qv x0 x1 x2) (Cert.Attn.kv x0 x1 x2) (Cert.Attn.vv x0 x1 x2) b n h d := by
  rw [val_main_v26_apply]
  unfold Cert.Attn.att
  refine Finset.sum_congr rfl fun k _ => ?_
  rw [l26, r26, v25_eq, v11_eq]

theorem i27 (b h : Fin 8) (n : Fin 1024) (d : Fin 96) : idx_main_v27 (ix4 b n h d) = ix4 b h n d :=
  funext fun a => Fin.ext (by match a with | ⟨0, _⟩ => rfl | ⟨1, _⟩ => rfl | ⟨2, _⟩ => rfl | ⟨3, _⟩ => rfl)

/-- Column `c` of row `(b, n)` is head `c / 96`, lane `c % 96`. -/
theorem i28 (b : Fin 8) (n : Fin 1024) (c : Fin 768) :
    idx_main_v28 (ix3 b n c) = ix4 b n (Cert.Attn.hd c) (Cert.Attn.ln c) :=
  funext fun a => Fin.ext (by
    have hb := b.isLt; have hn := n.isLt; have hc := c.isLt
    match a with
    | ⟨0, _⟩ => show (((b.val * 1024 + n.val) * 768 + c.val) / 786432) = b.val; omega
    | ⟨1, _⟩ => show (((b.val * 1024 + n.val) * 768 + c.val) / 768 % 1024) = n.val; omega
    | ⟨2, _⟩ => show (((b.val * 1024 + n.val) * 768 + c.val) / 96 % 8) = c.val / 96; omega
    | ⟨3, _⟩ => show (((b.val * 1024 + n.val) * 768 + c.val) % 96) = c.val % 96; omega)

/-- The attended array with the heads laid side by side. -/
theorem v28_eq (b : Fin 8) (n : Fin 1024) (c : Fin 768) :
    val_main_v28 (F := Ideal) x0 x1 x2 (ix3 b n c)
      = Cert.Attn.att (Cert.Attn.qv x0 x1 x2) (Cert.Attn.kv x0 x1 x2) (Cert.Attn.vv x0 x1 x2) b n
          (Cert.Attn.hd c) (Cert.Attn.ln c) := by
  rw [val_main_v28_apply, i28, val_main_v27_apply, i27, v26_eq]

/-! ## The second linear map -/

theorem l29 (b : Fin 8) (n : Fin 1024) (j c : Fin 768) : lidx_main_v29 (ix3 b n j) c = ix3 b n c :=
  funext fun a => Fin.ext (by match a with | ⟨0, _⟩ => rfl | ⟨1, _⟩ => rfl | ⟨2, _⟩ => rfl)

theorem r29 (b : Fin 8) (n : Fin 1024) (j c : Fin 768) : ridx_main_v29 (ix3 b n j) c = ix2 c j :=
  funext fun a => Fin.ext (by match a with | ⟨0, _⟩ => rfl | ⟨1, _⟩ => rfl)

theorem bidx' (b : Fin 8) (n : Fin 1024) (j : Fin 768) : idx_main_v30 (idx_main_v31 (ix3 b n j)) = ix1 j :=
  funext fun a => Fin.ext (by match a with | ⟨0, _⟩ => rfl)

/-- The result at `(b, n, j)`. -/
theorem v32_eq (b : Fin 8) (n : Fin 1024) (j : Fin 768) :
    val_main_v32 (F := Ideal) x0 x1 x2 x3 x4 (ix3 b n j) = Cert.Attn.out x0 x1 x2 x3 x4 b n j := by
  rw [val_main_v32_apply, val_main_v29_apply, val_main_v31_apply, val_main_v30_apply, bidx', Ideal.addf_def]
  unfold Cert.Attn.out
  refine congrArg (· + x4 (ix1 j)) (Finset.sum_congr rfl fun c _ => ?_)
  rw [l29, r29, v28_eq]

theorem outArr_ix3 (b : Fin 8) (n : Fin 1024) (j : Fin 768) :
    Cert.Attn.outArr x0 x1 x2 x3 x4 (ix3 b n j) = Cert.Attn.out x0 x1 x2 x3 x4 b n j := rfl

/-- The reference program's result is the attention function of the specification. -/
theorem ref_eq :
    Cert.ReferenceIdeal.Read.val_main_v32 (F := Ideal) x0 x1 x2 x3 x4 = Cert.Attn.outArr x0 x1 x2 x3 x4 := by
  funext i
  obtain ⟨b, n, j, rfl⟩ : ∃ (b : Fin 8) (n : Fin 1024) (j : Fin 768), i = ix3 b n j := ⟨i 0, i 1, i 2, eq_ix3 i⟩
  rw [outArr_ix3]
  exact v32_eq x0 x1 x2 x3 x4 b n j

end Cert.Attn.Ref

end
-- ==== Proof.lean ====
/-
  Multi-head self-attention: a three-kernel program against its plain reference, over the extended reals.

  The kernel program projects the [8, 1024, 768] input by a fused linear map into scaled queries, keys and
  values (one kernel over blocks of rows), attends head by head inside a second kernel that runs over the
  batch (scores by a product contracting the lanes, the softmax as exp (s − max s) / Σ exp (s − max s), the
  weighted sum of the values), and applies the output linear map in a third kernel; between the kernels the
  arrays are only viewed in another shape.  The reference does the same with whole-array operations: one
  contraction plus bias, a reshape and a transpose that split the 2304 columns into query / key / value, head and
  lane, the scale, the batched score product, the softmax with the same formula (its row maximum joined once more
  with −∞, which changes nothing), the batched weighted sum, the transpose back and the second contraction plus bias.

  Both are shown to compute the one function `Cert.Attn.outArr` of the five arguments (Proof/Spec.lean), entry by
  entry; no step uses more than re-indexing, the equality of a sum with itself, and `max ⊥-word x = x` on a fold
  that starts from that word, so the precondition is never opened.  The idealization rewrote nothing, so the
  preservation claim is trivial.  The three frames are the generated frame certificates of the two kernel programs
  and the reference's generated run with its result dropped.
-/
import proofs.«181797_j90005334655017_2_alg».proof.Defs
import proofs.«181797_j90005334655017_2_alg».proof.Proof.Gen.Kernel
import proofs.«181797_j90005334655017_2_alg».proof.Proof.Gen.Kernel.Skeleton
import proofs.«181797_j90005334655017_2_alg».proof.Proof.Gen.Kernel.Launch
import proofs.«181797_j90005334655017_2_alg».proof.Proof.Gen.Kernel.Points
import proofs.«181797_j90005334655017_2_alg».proof.Proof.Gen.Kernel.Frame
import proofs.«181797_j90005334655017_2_alg».proof.Proof.Gen.KernelIdeal
import proofs.«181797_j90005334655017_2_alg».proof.Proof.Gen.KernelIdeal.Skeleton
import proofs.«181797_j90005334655017_2_alg».proof.Proof.Gen.KernelIdeal.Launch
import proofs.«181797_j90005334655017_2_alg».proof.Proof.Gen.KernelIdeal.Points
import proofs.«181797_j90005334655017_2_alg».proof.Proof.Gen.KernelIdeal.Frame
import proofs.«181797_j90005334655017_2_alg».proof.Proof.Gen.ReferenceIdeal
import proofs.«181797_j90005334655017_2_alg».proof.Proof.Gen.Pre_finite_inputs
import proofs.«181797_j90005334655017_2_alg».proof.Proof.Gen.ReferenceIdeal.Run
import proofs.«181797_j90005334655017_2_alg».proof.Proof.Gen.ReferenceIdeal.Read
import proofs.«181797_j90005334655017_2_alg».proof.Proof.KernelValue
import proofs.«181797_j90005334655017_2_alg».proof.Proof.RefValue
import Idealize.ShloMosaic.Adequacy
import Idealize.ShloMosaic.Init

noncomputable section

namespace Cert.Proof

open Idealize.ShloMosaic Idealize.SL.Sem

/-- The word-level kernel program terminates without a fault and leaves its arguments as launched. -/
theorem frame_kernel [Cert.Kernel.Facts] [Cert.Pre_finite_inputs.Facts] : Cert.frame_Kernel :=
  fun m ρ _ => Cert.Kernel.Gen.frame m ρ

/-- So does the idealized kernel program. -/
theorem frame_kernelIdeal [Cert.KernelIdeal.Facts] [Cert.Pre_finite_inputs.Facts] : Cert.frame_KernelIdeal :=
  fun m ρ _ => Cert.KernelIdeal.Gen.frame m ρ

/-- So does the reference: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the five arguments both programs end with the attention function of those arguments
    in their result buffers. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Attn.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.Attn.Ref.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
